-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S11008x4096 : Shape := ⟨2, ![11008, 4096]⟩
abbrev S11008x32 : Shape := ⟨2, ![11008, 32]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S11008x32 : S_.BroadcastsInDim S11008x32 (![] : Fin 0 → Fin S11008x32.rank)
  reducesTo_S11008x32_S_d0_1 : S11008x32.ReducesTo [0, 1] S_

variable [Facts]

def fn {F : FTy → Type} [FloatOps F] (main_arg0 : FVec F S4096x4096 .f32) (main_arg1 : IVec S11008x4096 32) (main_arg2 : FVec F S11008x32 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S11008x32 .f32 := Host.absf main_arg2
  let main_cst_0 : FVec F S_ .f32 := constant S_ .f32 0x7F800000#32
  let main_v5 : FVec F S11008x32 .f32 := broadcastInDim S11008x32 ![] bcast_S_S11008x32 main_cst_0
  let main_v6 : IVec S11008x32 1 := cmpf .olt main_v4 main_v5
  let main_c_1 : IVec S_ 1 := constantI S_ 1 1#1
  let main_v7 : IVec S_ 1 := (fun x v => Host.reduce IntOp.andi x v reducesTo_S11008x32_S_d0_1 h_S_) main_v6 main_c_1
  let main_v8 : IVec S_ 1 := andi main_v3 main_v7
  main_v8
-- ==== Kernel.lean ====
abbrev S4096x4096 : Shape := ⟨2, ![4096, 4096]⟩
abbrev S11008x4096 : Shape := ⟨2, ![11008, 4096]⟩
abbrev S11008x32 : Shape := ⟨2, ![11008, 32]⟩
abbrev S4096x11008 : Shape := ⟨2, ![4096, 11008]⟩
abbrev S1536x256 : Shape := ⟨2, ![1536, 256]⟩
abbrev S2048x256 : Shape := ⟨2, ![2048, 256]⟩
abbrev S2048x32 : Shape := ⟨2, ![2048, 32]⟩
abbrev S1536x2048 : Shape := ⟨2, ![1536, 2048]⟩
abbrev S2048x2 : Shape := ⟨2, ![2048, 2]⟩
abbrev S2048x2x128 : Shape := ⟨3, ![2048, 2, 128]⟩
abbrev S2048x2x1 : Shape := ⟨3, ![2048, 2, 1]⟩

abbrev nBuf : Space → Nat
  | .hbm => 4
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S11008x4096, .i32⟩
  | .hbm, ⟨2, _⟩ => ⟨S11008x32, .f32⟩
  | .hbm, ⟨3, _⟩ => ⟨S4096x11008, .f32⟩
  | .local _ .vmem, ⟨0, _⟩ => ⟨S1536x256, .f32⟩
  | .local _ .vmem, ⟨1, _⟩ => ⟨S1536x256, .f32⟩
  | .local _ .vmem, ⟨2, _⟩ => ⟨S2048x256, .i32⟩
  | .local _ .vmem, ⟨3, _⟩ => ⟨S2048x256, .i32⟩
  | .local _ .vmem, ⟨4, _⟩ => ⟨S2048x32, .f32⟩
  | .local _ .vmem, ⟨5, _⟩ => ⟨S2048x32, .f32⟩
  | .local _ .vmem, ⟨6, _⟩ => ⟨S1536x2048, .f32⟩
  | .local _ .vmem, ⟨7, _⟩ => ⟨S1536x2048, .f32⟩
  | .local _ .vmem, ⟨8, _⟩ => ⟨S1536x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 6, 16], ![false, false, false]⟩

def k0_off1 (i : grid0.Coords) : Fin 2 → Nat :=
  let c0 : Index := 0#32
  let arg2 : BitVec 32 := BitVec.ofNat 32 (i 2).val
  let c2_i32 : BitVec 32 := 2#32
  let v3 : BitVec 32 := Scalar.muli arg2 c2_i32
  let v4 : Index := Scalar.indexCast v3
  ![0, v4.toNat]
def k0_cond2 (i : grid0.Coords) : BitVec 1 :=
  let arg2 : BitVec 32 := BitVec.ofNat 32 (i 2).val
  let c15_i32 : BitVec 32 := 15#32
  let v24 : BitVec 1 := Scalar.cmpi .eq arg2 c15_i32
  let v25 : BitVec 32 := Scalar.extui v24
  let c0_i32_10 : BitVec 32 := 0#32
  let v26 : BitVec 1 := Scalar.cmpi .ne v25 c0_i32_10
  v26

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1536x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  inb_S1536x2048_S1536x2048_0_0 : ∀ a, (![0, 0] : Fin 2 → Nat) a + S1536x2048.size a ≤ S1536x2048.size a
  h_S1536x2048 : 0 < S1536x2048.numel
  shapeCasts_S1536x2048_S1536x2048 : S1536x2048.ShapeCasts S1536x2048
  h_S2048x2 : 0 < S2048x2.numel
  inb_S2048x256_S2048x256_0_0 : ∀ a, (![0, 0] : Fin 2 → Nat) a + S2048x256.size a ≤ S2048x256.size a
  h_S2048x256 : 0 < S2048x256.numel
  shapeCasts_S2048x256_S2048x2x128 : S2048x256.ShapeCasts S2048x2x128
  shapeCasts_S2048x2_S2048x2x1 : S2048x2.ShapeCasts S2048x2x1
  broadcasts_S2048x2x1_S2048x2x128 : S2048x2x1.Broadcasts S2048x2x128
  shapeCasts_S2048x2x128_S2048x256 : S2048x2x128.ShapeCasts S2048x256
  bitsLt_bf16_f32 : FTy.bits .bf16 < FTy.bits .f32
  inb_S1536x256_S1536x256_0_0 : ∀ a, (![0, 0] : Fin 2 → Nat) a + S1536x256.size a ≤ S1536x256.size a
  h_S1536x256 : 0 < S1536x256.numel
  dot_S1536x256_S2048x256_S1536x2048_1_1_0_0_n_n_wf : DotDims.WF S1536x256 S2048x256 S1536x2048 [1] [1] [0] [0] [] []
  hrank0 : 0 < grid0.rank
  k0_off1_inb : ∀ i : grid0.Coords, ∀ a, (k0_off1 i) a + S2048x2.size a ≤ S2048x32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1536x256.size a < S4096x4096.size a
  hwx0_0 : ∀ i : grid0.Coords, EltTy.bits .f32 = 32 ∨ (Rect.unit (s := S4096x4096) (fun a => cc0_transform_0 i a * S1536x256.size a) (fun a => (Pipeline.Clip.of (cc0_transform_0 i a) (S1536x256.size a) (S4096x4096.size a)).extent (S1536x256.size a)) fun a => Pipeline.Clip.inb (Pipeline.Clip.ok_of (hstart0_0 i a))).WholeWords (EltTy.packing .f32)
  hwxs0_0 : ∀ i : grid0.Coords, EltTy.bits .f32 = 32 ∨ (Rect.unit (s := S1536x256) (fun _ => 0) (fun a => (Pipeline.Clip.of (cc0_transform_0 i a) (S1536x256.size a) (S4096x4096.size a)).extent (S1536x256.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x256.size a < S11008x4096.size a
  hwx0_1 : ∀ i : grid0.Coords, EltTy.bits .i32 = 32 ∨ (Rect.unit (s := S11008x4096) (fun a => cc0_transform_1 i a * S2048x256.size a) (fun a => (Pipeline.Clip.of (cc0_transform_1 i a) (S2048x256.size a) (S11008x4096.size a)).extent (S2048x256.size a)) fun a => Pipeline.Clip.inb (Pipeline.Clip.ok_of (hstart0_1 i a))).WholeWords (EltTy.packing .i32)
  hwxs0_1 : ∀ i : grid0.Coords, EltTy.bits .i32 = 32 ∨ (Rect.unit (s := S2048x256) (fun _ => 0) (fun a => (Pipeline.Clip.of (cc0_transform_1 i a) (S2048x256.size a) (S11008x4096.size a)).extent (S2048x256.size a)) fun a => (Nat.zero_add _).trans_le (Pipeline.Clip.extent_le (Pipeline.Clip.ok_of (hstart0_1 i a)))).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S2048x32.size a < S11008x32.size a
  hwx0_2 : ∀ i : grid0.Coords, EltTy.bits .f32 = 32 ∨ (Rect.unit (s := S11008x32) (fun a => cc0_transform_2 i a * S2048x32.size a) (fun a => (Pipeline.Clip.of (cc0_transform_2 i a) (S2048x32.size a) (S11008x32.size a)).extent (S2048x32.size a)) fun a => Pipeline.Clip.inb (Pipeline.Clip.ok_of (hstart0_2 i a))).WholeWords (EltTy.packing .f32)
  hwxs0_2 : ∀ i : grid0.Coords, EltTy.bits .f32 = 32 ∨ (Rect.unit (s := S2048x32) (fun _ => 0) (fun a => (Pipeline.Clip.of (cc0_transform_2 i a) (S2048x32.size a) (S11008x32.size a)).extent (S2048x32.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1536x2048.size a < S4096x11008.size a
  hwx0_3 : ∀ i : grid0.Coords, EltTy.bits .f32 = 32 ∨ (Rect.unit (s := S4096x11008) (fun a => cc0_transform_3 i a * S1536x2048.size a) (fun a => (Pipeline.Clip.of (cc0_transform_3 i a) (S1536x2048.size a) (S4096x11008.size a)).extent (S1536x2048.size a)) fun a => Pipeline.Clip.inb (Pipeline.Clip.ok_of (hstart0_3 i a))).WholeWords (EltTy.packing .f32)
  hwxs0_3 : ∀ i : grid0.Coords, EltTy.bits .f32 = 32 ∨ (Rect.unit (s := S1536x2048) (fun _ => 0) (fun a => (Pipeline.Clip.of (cc0_transform_3 i a) (S1536x2048.size a) (S4096x11008.size a)).extent (S1536x2048.size a)) fun a => (Nat.zero_add _).trans_le (Pipeline.Clip.extent_le (Pipeline.Clip.ok_of (hstart0_3 i a)))).WholeWords (EltTy.packing .f32)

variable [Facts₀]

def dot_S1536x256_S2048x256_S1536x2048_1_1_0_0_n_n : DotDims S1536x256 S2048x256 S1536x2048 where
  lhsContracting := [1]
  rhsContracting := [1]
  lhsNonContracting := [0]
  rhsNonContracting := [0]
  lhsBatch := []
  rhsBatch := []
  wf := dot_S1536x256_S2048x256_S1536x2048_1_1_0_0_n_n_wf

abbrev win0_0 : Pipeline.Window sig grid0 :=
  Pipeline.Window.ofSpecClip (Memref.whole main_arg0) S1536x256.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S2048x256.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg2) S2048x32.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v0) S1536x2048.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S11008x4096 : Shape := ⟨2, ![11008, 4096]⟩
abbrev S11008x32 : Shape := ⟨2, ![11008, 32]⟩
abbrev S11008x32x128 : Shape := ⟨3, ![11008, 32, 128]⟩
abbrev S_ : Shape := ⟨0, ![]⟩
abbrev S11008x32x1 : Shape := ⟨3, ![11008, 32, 1]⟩
abbrev S4096x11008 : Shape := ⟨2, ![4096, 11008]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S11008x4096, .i32⟩
  | .hbm, ⟨2, _⟩ => ⟨S11008x32, .f32⟩
  | .hbm, ⟨3, _⟩ => ⟨S11008x32x128, .i32⟩
  | .hbm, ⟨4, _⟩ => ⟨S11008x32x128, .f32⟩
  | .hbm, ⟨5, _⟩ => ⟨S_, .f32⟩
  | .hbm, ⟨6, _⟩ => ⟨S11008x32x128, .f32⟩
  | .hbm, ⟨7, _⟩ => ⟨S11008x32x128, .f32⟩
  | .hbm, ⟨8, _⟩ => ⟨S11008x32x1, .f32⟩
  | .hbm, ⟨9, _⟩ => ⟨S11008x32x128, .f32⟩
  | .hbm, ⟨10, _⟩ => ⟨S11008x32x128, .f32⟩
  | .hbm, ⟨11, _⟩ => ⟨S11008x4096, .f32⟩
  | .hbm, ⟨12, _⟩ => ⟨S4096x11008, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  shapeCasts_S11008x4096_S11008x32x128 : S11008x4096.ShapeCasts S11008x32x128
  bcast_S_S11008x32x128 : S_.BroadcastsInDim S11008x32x128 (![] : Fin 0 → Fin S11008x32x128.rank)
  bcast_S11008x32_S11008x32x1_0_1 : S11008x32.BroadcastsInDim S11008x32x1 (![0, 1] : Fin 2 → Fin S11008x32x1.rank)
  bcast_S11008x32x1_S11008x32x128_0_1_2 : S11008x32x1.BroadcastsInDim S11008x32x128 (![0, 1, 2] : Fin 3 → Fin S11008x32x128.rank)
  shapeCasts_S11008x32x128_S11008x4096 : S11008x32x128.ShapeCasts S11008x4096
  dot_S4096x4096_S11008x4096_S4096x11008_1_1_0_0_n_n_wf : DotDims.WF S4096x4096 S11008x4096 S4096x11008 [1] [1] [0] [0] [] []

variable [Facts₀]

def dot_S4096x4096_S11008x4096_S4096x11008_1_1_0_0_n_n : DotDims S4096x4096 S11008x4096 S4096x11008 where
  lhsContracting := [1]
  rhsContracting := [1]
  lhsNonContracting := [0]
  rhsNonContracting := [0]
  lhsBatch := []
  rhsBatch := []
  wf := dot_S4096x4096_S11008x4096_S4096x11008_1_1_0_0_n_n_wf

class Facts : Prop extends Facts₀ where

variable [Facts]
-- ==== Proof.LibGroupedProduct.lean ====
/-
  A matrix product against a group-quantised weight matrix, over the extended reals.

  The weight matrix is stored as integer codes `q[o, k]` with one real scale per row and per group of 128
  consecutive columns, `s[o, k / 128]`; the weight it denotes is `(q[o, k] - 8) * s[o, k / 128]`, and the product
  of a matrix `x` with its transpose is `y[r, o] = Σ_k x[r, k] * ((q[o, k] - 8) * s[o, k / 128])`.

  The terms are indexed by natural numbers (zero outside the matrices), so that a running sum over column tiles
  of 256 — the first `n` tiles, `part n` — is a sum over `Finset.range (256 * n)`: tile `n` adds the 256 terms at
  columns `256 * n + kk` (`part_succ`), nothing has been added before the first tile (`part_zero`), and after
  all sixteen tiles the running sum is the whole row-by-row product (`product_apply`). Only commutativity and
  associativity of addition are used, so nothing here asks the entries to be finite.
-/
import Idealize.ShloMosaic.PureOps.Ideal
import Idealize.ShloMosaic.Lib.ValueIdx

noncomputable section

namespace Cert.GroupedProduct

open Idealize.ShloMosaic Idealize.ShloMosaic.ValueIdx

/-- The shapes: the left matrix, the codes, the scales, the product. -/
abbrev SX : Shape := ⟨2, ![4096, 4096]⟩
abbrev SQ : Shape := ⟨2, ![11008, 4096]⟩
abbrev SS : Shape := ⟨2, ![11008, 32]⟩
abbrev SY : Shape := ⟨2, ![4096, 11008]⟩

/-- The weight a code denotes under a scale: the code read as a signed integer, less the zero point 8 (kept as its
    binary word: both programs write the same word), times the scale. -/
def deq (qv : BitVec 32) (sv : EReal) : EReal :=
  (((qv.toInt : ℝ) : EReal) - Ideal.ofBits .f32 0x41000000#32) * sv

variable (x : SX.Idx → EReal) (q : SQ.Idx → BitVec 32) (s : SS.Idx → EReal)

/-- The term of the product at row `r` of `x`, row `o` of the weights and column `k`; zero outside the matrices. -/
def term (r o k : ℕ) : EReal :=
  if h : r < 4096 ∧ o < 11008 ∧ k < 4096 then
    x (ix2 ⟨r, h.1⟩ ⟨k, h.2.2⟩) * deq (q (ix2 ⟨o, h.2.1⟩ ⟨k, h.2.2⟩)) (s (ix2 ⟨o, h.2.1⟩ ⟨k / 128, by omega⟩))
  else 0

/-- The running sum over the first `n` column tiles of 256. -/
def part (n r o : ℕ) : EReal := ∑ k ∈ Finset.range (256 * n), term x q s r o k

/-- The product. -/
def product : SY.Idx → EReal := fun i => part x q s 16 (i 0).val (i 1).val

theorem part_zero (r o : ℕ) : part x q s 0 r o = 0 := by
  unfold part; rw [Nat.mul_zero, Finset.range_zero, Finset.sum_empty]

/-- Tile `n` adds its 256 terms. -/
theorem part_succ (n r o : ℕ) :
    part x q s (n + 1) r o = part x q s n r o + ∑ kk ∈ Finset.range 256, term x q s r o (256 * n + kk) := by
  unfold part; rw [Nat.mul_succ, Finset.sum_range_add]

/-- Inside the matrices the term is the product of the entry with the weight. -/
theorem term_of_lt (r : Fin 4096) (o : Fin 11008) (k : Fin 4096) :
    term x q s r.val o.val k.val
      = x (ix2 r k) * deq (q (ix2 o k)) (s (ix2 o ⟨k.val / 128, by have := k.isLt; omega⟩)) := by
  unfold term; rw [dif_pos ⟨r.isLt, o.isLt, k.isLt⟩]

/-- The product at an index is the sum over all 4096 columns. -/
theorem product_apply (i : SY.Idx) :
    product x q s i = ∑ k : Fin 4096, x (ix2 (i 0) k) * deq (q (ix2 (i 1) k)) (s (ix2 (i 1) ⟨k.val / 128, by have := k.isLt; omega⟩)) := by
  unfold product part
  rw [show 256 * 16 = 4096 from rfl, ← Fin.sum_univ_eq_sum_range (fun k => term x q s (i 0).val (i 1).val k) 4096]
  exact Finset.sum_congr rfl fun k _ => term_of_lt x q s (i 0) (i 1) k

end Cert.GroupedProduct

end
-- ==== Proof.ReferenceProduct.lean ====
/-
  The reference's result is the grouped product.

  The reference reshapes the integer codes `q` from [11008, 4096] to [11008, 32, 128], converts them to reals,
  subtracts the zero point 8, multiplies by the scales `s` (shape [11008, 32]) broadcast along the last axis (the
  128 columns of a group), reshapes the result back to [11008, 4096] and contracts it with `x` over the 4096
  columns. Entry by entry: the reshaped weight at row `o` and column `k` is read at the group index
  `(o, k / 128, k % 128)`, which the first reshape reads back from the code at `(o, k)` (row-major:
  `(o * 32 + k / 128) * 128 + k % 128 = o * 4096 + k`), and the broadcast scale at that group index is
  `s[o, k / 128]`. So the weight is `(q[o, k] - 8) * s[o, k / 128]` and the result at `(r, o)` is
  `Σ_k x[r, k] * ((q[o, k] - 8) * s[o, k / 128])`, the grouped product.
-/
import proofs.«115205_j37082747634166_1_alg».proof.Proof.Gen.ReferenceIdeal.Read
import proofs.«115205_j37082747634166_1_alg».proof.Proof.LibGroupedProduct

noncomputable section

namespace Cert.ReferenceIdeal.RefValue

open Cert.ReferenceIdeal Cert.ReferenceIdeal.Read Idealize.ShloMosaic Idealize.ShloMosaic.ValueIdx

/-- The left operand of the contraction is read at row `i 0`, column `k`. -/
theorem lidx_eq (i : S4096x11008.Idx) (k : Fin 4096) : lidx_main_v8 i k = ix2 (i 0) k := by
  funext a
  match a with
  | ⟨0, _⟩ => rfl
  | ⟨1, _⟩ => rfl

/-- Through both reshapes, the weight at row `i 1`, column `k` reads the code at row `i 1`, column `k`. -/
theorem code_idx_eq (i : S4096x11008.Idx) (k : Fin 4096) :
    idx_main_v0 (idx_main_v7 (ridx_main_v8 i k)) = ix2 (i 1) k := by
  have h1 : (i 1).val < 11008 := (i 1).isLt
  have hk : k.val < 4096 := k.isLt
  funext a
  match a with
  | ⟨0, _⟩ =>
    refine Fin.ext ?_
    show ((((i 1).val * 4096 + k.val) / 4096 * 32 + ((i 1).val * 4096 + k.val) / 128 % 32) * 128
      + ((i 1).val * 4096 + k.val) % 128) / 4096 = (i 1).val
    omega
  | ⟨1, _⟩ =>
    refine Fin.ext ?_
    show ((((i 1).val * 4096 + k.val) / 4096 * 32 + ((i 1).val * 4096 + k.val) / 128 % 32) * 128
      + ((i 1).val * 4096 + k.val) % 128) % 4096 = k.val
    omega

/-- Through the reshape and both broadcasts, the weight at row `i 1`, column `k` reads the scale of row `i 1`,
    group `k / 128`. -/
theorem scale_idx_eq (i : S4096x11008.Idx) (k : Fin 4096) :
    idx_main_v4 (idx_main_v5 (idx_main_v7 (ridx_main_v8 i k)))
      = ix2 (i 1) ⟨k.val / 128, by have := k.isLt; omega⟩ := by
  have h1 : (i 1).val < 11008 := (i 1).isLt
  have hk : k.val < 4096 := k.isLt
  funext a
  match a with
  | ⟨0, _⟩ =>
    refine Fin.ext ?_
    show ((i 1).val * 4096 + k.val) / 4096 = (i 1).val
    omega
  | ⟨1, _⟩ =>
    refine Fin.ext ?_
    show ((i 1).val * 4096 + k.val) / 128 % 32 = k.val / 128
    omega

/-- The idealized reference's result is the grouped product of its three arguments. -/
theorem reference_eq (x0 : (⟨S4096x4096, .f32⟩ : BufTy).Contents (Elt Ideal))
    (x1 : (⟨S11008x4096, .i32⟩ : BufTy).Contents (Elt Ideal))
    (x2 : (⟨S11008x32, .f32⟩ : BufTy).Contents (Elt Ideal)) :
    Cert.ReferenceIdeal.Read.val_main_v8 (F := Ideal) x0 x1 x2 = Cert.GroupedProduct.product x0 x1 x2 := by
  funext i
  rw [Cert.GroupedProduct.product_apply, val_main_v8_apply]
  refine Finset.sum_congr rfl fun k _ => ?_
  rw [val_main_v7_apply, val_main_v6_apply, val_main_v3_apply, val_main_v1_apply, val_main_v0_apply,
    val_main_v2_apply, val_main_cst_apply, val_main_v5_apply, val_main_v4_apply,
    lidx_eq, code_idx_eq, scale_idx_eq]
  unfold Cert.GroupedProduct.deq
  rfl

end Cert.ReferenceIdeal.RefValue

end
-- ==== Proof.TileRunWord.lean ====
/-
  One grid point of the kernel, run on whatever its five buffers hold.

  The body keeps a running sum in a scratch buffer `acc` of the output block's shape. At a point with tile
  number `k` (the third grid coordinate) it: zeroes `acc` when `k = 0`; reads the two columns `2k, 2k+1` of the
  scale block, the code tile and the `x` tile; replaces `acc` by `acc + x_tile · wᵀ` (the generated payload
  `k0_pay2`: `w` the codes less 8 times their group's scale); and copies `acc` to the output block when
  `k = 15`. Three theorems, one per way the two conditions fall (they cannot both hold), each generic in the
  number format: from the five buffers owned at any contents `x0 x1 x2 x3 xs`, the body runs without a fault and
  hands them back with the inputs unchanged, the scratch at `tile i x0 x1 x2 ·` of what it held (of zeros, at
  the first tile), and the output block untouched or, at the last tile, at the scratch's new contents.
-/
import proofs.«115205_j37082747634166_1_alg».proof.Proof.Gen.Kernel.Launch
import proofs.«115205_j37082747634166_1_alg».proof.Proof.Gen.Kernel.Skeleton
import proofs.«115205_j37082747634166_1_alg».proof.Proof.Gen.Kernel.Points
import proofs.«115205_j37082747634166_1_alg».proof.Proof.Gen.Kernel.Frame
import Idealize.ShloMosaic.Lib.Pipeline.FrameBody
import Idealize.ShloMosaic.Lib.Pipeline.Value
import Idealize.ShloMosaic.Lib.Tactic

set_option maxRecDepth 16384

noncomputable section

namespace Cert.Kernel.TileRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first-tile condition of the body's first `scf.if`, as the skeleton spells it. -/
abbrev condFirst (i : grid0.Coords) : Prop :=
  (Scalar.cmpi .ne (Scalar.extui (Scalar.cmpi .eq (BitVec.ofNat 32 (i 2).val) 0#32)) 0#32) = 1#1
/-- The last-tile condition of its second. -/
abbrev condLast (i : grid0.Coords) : Prop := k0_cond2 i = 1#1

/-- The two columns of the scale block that tile `i 2` reads. -/
abbrev scaleRect (i : grid0.Coords) : Rect S2048x32 := Rect.unit (s := S2048x32) (k0_off1 i) S2048x2.size (k0_off1_inb i)

/-- What one tile makes of the scratch contents `xs`: `xs + x0 · wᵀ`, `w` from the codes `x1` and the tile's two
    scale columns of `x2`. -/
def tile (i : grid0.Coords) (x0 : Vec F S1536x256 .f32) (x1 : Vec F S2048x256 .i32) (x2 : Vec F S2048x32 .f32)
    (xs : Vec F S1536x2048 .f32) : Vec F S1536x2048 .f32 :=
  k0_pay2 (View.ld x2 (scaleRect i)) x1 x0 xs

theorem hzero2 : (![0, 0] : Fin 2 → Nat) = fun _ => 0 := funext fun a => by fin_cases a <;> rfl

/-- The one whole-block store covers the block. -/
theorem cover_whole {e : EltTy} {S : Shape} {Val : EltTy → Type} {off : Fin S.rank → Nat} (h : off = fun _ => 0)
    (inb : ∀ a, off a + S.size a ≤ S.size a) (w : S.Idx → Val e) (L : List (View.Piece Val S e)) (y : S.Idx) :
    ∃ p ∈ ((⟨Rect.unit off S.size inb, w⟩ : View.Piece Val S e) :: L), y ∈ p.1.set :=
  ⟨_, List.mem_cons_self, View.mem_set_unit_zero h inb y⟩

set_option maxHeartbeats 1000000 in
/-- A middle tile: neither condition holds. -/
theorem run_mid (c : Dev nD) (i : grid0.Coords) (arg3 : Memref sig .tc .vmem S1536x256 .f32) (harg3 : arg3.IsWhole) (arg4 : Memref sig .tc .vmem S2048x256 .i32) (harg4 : arg4.IsWhole) (arg5 : Memref sig .tc .vmem S2048x32 .f32) (harg5 : arg5.IsWhole) (arg6 : Memref sig .tc .vmem S1536x2048 .f32) (harg6 : arg6.IsWhole) (arg7 : Memref sig .tc .vmem S1536x2048 .f32) (harg7 : arg7.IsWhole)
    (hc0 : ¬condFirst i) (hc1 : ¬condLast i)
    (x0 : Vec F S1536x256 .f32) (x1 : Vec F S2048x256 .i32) (x2 : Vec F S2048x32 .f32) (x3 xs : Vec F S1536x2048 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (tile i x0 x1 x2 xs)) -∗ K ⟨⟩))
      ⊢ wp frame (wpE (defs₀ (F := F)) Variants.none c none) E (cc0__rtn_marlin_kernel i arg3 harg3 arg4 harg4 arg5 harg5 arg6 harg6 arg7 harg7) K := by
  simp only [cc0__rtn_marlin_kernel_eq_skeleton]; unfold cc0__rtn_marlin_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  rw [View.read_writes_eq_canon _ _ _ (cover_whole hzero2 _ _ _), View.canon_unit_zero hzero2]
  simp only [View.readAt_eq_ld, harg3.read_unread, harg4.read_unread, harg5.read_unread, harg7.read_unread,
    View.ld_unit_zero (S := S2048x256) hzero2, View.ld_unit_zero (S := S1536x256) hzero2, View.ld_unit_zero (S := S1536x2048) hzero2]
  rfl

set_option maxHeartbeats 1000000 in
/-- The first tile: the scratch is zeroed first, whatever it held. -/
theorem run_first (c : Dev nD) (i : grid0.Coords) (arg3 : Memref sig .tc .vmem S1536x256 .f32) (harg3 : arg3.IsWhole) (arg4 : Memref sig .tc .vmem S2048x256 .i32) (harg4 : arg4.IsWhole) (arg5 : Memref sig .tc .vmem S2048x32 .f32) (harg5 : arg5.IsWhole) (arg6 : Memref sig .tc .vmem S1536x2048 .f32) (harg6 : arg6.IsWhole) (arg7 : Memref sig .tc .vmem S1536x2048 .f32) (harg7 : arg7.IsWhole)
    (hc0 : condFirst i) (hc1 : ¬condLast i)
    (x0 : Vec F S1536x256 .f32) (x1 : Vec F S2048x256 .i32) (x2 : Vec F S2048x32 .f32) (x3 xs : Vec F S1536x2048 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (tile i x0 x1 x2 (k0_pay1 (F := F)))) -∗ K ⟨⟩))
      ⊢ wp frame (wpE (defs₀ (F := F)) Variants.none c none) E (cc0__rtn_marlin_kernel i arg3 harg3 arg4 harg4 arg5 harg5 arg6 harg6 arg7 harg7) K := by
  simp only [cc0__rtn_marlin_kernel_eq_skeleton]; unfold cc0__rtn_marlin_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  sl_unfold_words
  rw [View.read_writes_eq_canon _ _ _ (cover_whole hzero2 _ _ _), View.canon_cons_unit_zero hzero2]
  simp only [View.readAt_eq_ld, harg3.read_unread, harg4.read_unread, harg5.read_unread, harg7.read_unread,
    View.ld_unit_zero (S := S2048x256) hzero2, View.ld_unit_zero (S := S1536x256) hzero2, View.ld_unit_zero (S := S1536x2048) hzero2]
  rw [View.readCov_unit_zero (S := S1536x2048) arg7.view hzero2]
  rfl

set_option maxHeartbeats 1000000 in
/-- The last tile: the new scratch contents are copied to the output block. -/
theorem run_last (c : Dev nD) (i : grid0.Coords) (arg3 : Memref sig .tc .vmem S1536x256 .f32) (harg3 : arg3.IsWhole) (arg4 : Memref sig .tc .vmem S2048x256 .i32) (harg4 : arg4.IsWhole) (arg5 : Memref sig .tc .vmem S2048x32 .f32) (harg5 : arg5.IsWhole) (arg6 : Memref sig .tc .vmem S1536x2048 .f32) (harg6 : arg6.IsWhole) (arg7 : Memref sig .tc .vmem S1536x2048 .f32) (harg7 : arg7.IsWhole)
    (hc0 : ¬condFirst i) (hc1 : condLast i)
    (x0 : Vec F S1536x256 .f32) (x1 : Vec F S2048x256 .i32) (x2 : Vec F S2048x32 .f32) (x3 xs : Vec F S1536x2048 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (tile i x0 x1 x2 xs) ∗ owns (c : Thread nD τ) arg7 fullShare (tile i x0 x1 x2 xs)) -∗ K ⟨⟩))
      ⊢ wp frame (wpE (defs₀ (F := F)) Variants.none c none) E (cc0__rtn_marlin_kernel i arg3 harg3 arg4 harg4 arg5 harg5 arg6 harg6 arg7 harg7) K := by
  simp only [cc0__rtn_marlin_kernel_eq_skeleton]; unfold cc0__rtn_marlin_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    sl_unfold_words
    rw [View.read_writes_eq_canon _ _ _ (cover_whole hzero2 _ _ _), View.canon_cons_unit_zero hzero2]
    simp only [View.readAt_eq_ld, harg3.read_unread, harg4.read_unread, harg5.read_unread, harg7.read_unread,
      View.ld_unit_zero (S := S2048x256) hzero2, View.ld_unit_zero (S := S1536x256) hzero2, View.ld_unit_zero (S := S1536x2048) hzero2]
    rw [View.readCov_unit_zero (S := S1536x2048) arg7.view hzero2]
    rfl
  iexists _; isplitr
  swap; · iexact HS
  ipureintro
  sl_unfold_words
  rw [View.read_writes_eq_canon _ _ _ (cover_whole hzero2 _ _ _), View.canon_cons_unit_zero hzero2]
  simp only [View.readAt_eq_ld, harg3.read_unread, harg4.read_unread, harg5.read_unread, harg7.read_unread,
    View.ld_unit_zero (S := S2048x256) hzero2, View.ld_unit_zero (S := S1536x256) hzero2, View.ld_unit_zero (S := S1536x2048) hzero2]
  rfl

end Cert.Kernel.TileRun

end
-- ==== Proof.ScheduleWord.lean ====
/-
  The grid in closed form. The grid has 3 × 6 × 16 points, enumerated with the tile number fastest: point `t` has
  row-block `t / 96`, column-block `t / 16 % 6` and tile `t % 16`. Every fact here is one decision over the 288
  points: which block of each array a point's windows name, where the first-tile and last-tile conditions hold,
  which two scale columns the tile reads, and where the output window is written back.
-/
import proofs.«115205_j37082747634166_1_alg».proof.Proof.TileRunWord

set_option maxRecDepth 16384

noncomputable section

namespace Cert.Kernel.Schedule

open Cert.Kernel Cert.Kernel.Gen Cert.Kernel.TileRun
open Idealize.ShloMosaic Idealize.ShloMosaic.TcCoe

theorem N_eq : cfg0.N = 288 := N_0

/-- The tile number. -/
theorem tile_no : ∀ t : Fin cfg0.N, (grid0.coords t 2).val = t.val % 16 :=
  (by decide +kernel : ∀ t : Fin grid0.N, (grid0.coords t 2).val = t.val % 16)

/-- The blocks the four windows name at a point: `x`'s at (row-block, tile), the codes' at (column-block, tile),
    the scales' at (column-block, 0), the product's at (row-block, column-block). -/
theorem index0 : ∀ t : Fin cfg0.N, (cfg0.win 0).index t 0 = t.val / 96 ∧ (cfg0.win 0).index t 1 = t.val % 16 :=
  (by decide +kernel : ∀ t : Fin grid0.N, win0_0.index t 0 = t.val / 96 ∧ win0_0.index t 1 = t.val % 16)
theorem index1 : ∀ t : Fin cfg0.N, (cfg0.win 1).index t 0 = t.val / 16 % 6 ∧ (cfg0.win 1).index t 1 = t.val % 16 :=
  (by decide +kernel : ∀ t : Fin grid0.N, win0_1.index t 0 = t.val / 16 % 6 ∧ win0_1.index t 1 = t.val % 16)
theorem index2 : ∀ t : Fin cfg0.N, (cfg0.win 2).index t 0 = t.val / 16 % 6 ∧ (cfg0.win 2).index t 1 = 0 :=
  (by decide +kernel : ∀ t : Fin grid0.N, win0_2.index t 0 = t.val / 16 % 6 ∧ win0_2.index t 1 = 0)
theorem index3 : ∀ t : Fin cfg0.N, (cfg0.win 3).index t 0 = t.val / 96 ∧ (cfg0.win 3).index t 1 = t.val / 16 % 6 :=
  (by decide +kernel : ∀ t : Fin grid0.N, win0_3.index t 0 = t.val / 96 ∧ win0_3.index t 1 = t.val / 16 % 6)

/-- The two scale columns tile `k` reads start at column `2k`. -/
theorem scale_off : ∀ t : Fin cfg0.N, k0_off1 (grid0.coords t) 0 = 0 ∧ k0_off1 (grid0.coords t) 1 = 2 * (t.val % 16) :=
  (by decide +kernel : ∀ t : Fin grid0.N, k0_off1 (grid0.coords t) 0 = 0 ∧ k0_off1 (grid0.coords t) 1 = 2 * (t.val % 16))

/-- The body's first condition holds at the first tile of each output block, its second at the last. -/
theorem first_iff : ∀ t : Fin cfg0.N, condFirst (grid0.coords t) ↔ t.val % 16 = 0 :=
  (by decide +kernel : ∀ t : Fin grid0.N, condFirst (grid0.coords t) ↔ t.val % 16 = 0)
theorem last_iff : ∀ t : Fin cfg0.N, condLast (grid0.coords t) ↔ t.val % 16 = 15 :=
  (by decide +kernel : ∀ t : Fin grid0.N, condLast (grid0.coords t) ↔ t.val % 16 = 15)

/-- The output window is idle except at the last tile, where it is written back. -/
theorem idle3_iff : ∀ t : Fin cfg0.N, cfg0.idle 3 (grid0.coords t) = true ↔ ¬ t.val % 16 = 15 :=
  (by decide +kernel : ∀ t : Fin grid0.N, idle0 3 (grid0.coords t) = true ↔ ¬ t.val % 16 = 15)

end Cert.Kernel.Schedule

end
-- ==== Proof.WordFrame.lean ====
/-
  The kernel leaves its three argument arrays as it found them, whatever they hold.

  The pipeline hands the body, at each grid point, the current staging buffer of each of its four windows and the
  scratch accumulator. The blocks of the windows overhang their arrays at the edges, so a staging buffer's tail
  holds words that no array names, and the accumulator carries a running sum from point to point: the contents
  of the output's buffer cannot be named from the arrays alone. The claim here does not need them. The proof data
  therefore RELATES what the body is handed in a buffer to what it leaves there, instead of naming either:

    * of each input window (`x`, the codes, the scales) it says the body leaves the buffer as it found it;
    * of the output window it says nothing (the relation holds of any two contents), because the claim is about
      the argument arrays only and the output array is not one of them;
    * the invariant between points is the scratch accumulator owned at some contents and the generator register
      at some state; nothing is owed.

  The body obligation follows from the three runs of one grid point on arbitrary contents (first tile, middle
  tile, last tile; which one applies at point `t` is decided by `t % 16`): each hands the three input buffers
  back unchanged. The library's frame run then concludes that every input array, never written back, ends at its
  entry contents, which are the launch contents.
-/
import proofs.«115205_j37082747634166_1_alg».proof.Proof.TileRunWord
import proofs.«115205_j37082747634166_1_alg».proof.Proof.ScheduleWord
import Idealize.ShloMosaic.Lib.Pipeline.Frame
import Idealize.ShloMosaic.Lib.Pipeline.Cells

set_option maxRecDepth 16384

noncomputable section

namespace Cert.Kernel.WordFrame

open Cert.Kernel Cert.Kernel.Gen Cert.Kernel.TileRun Cert.Kernel.Schedule
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data on core `c`: the arrays as the region finds them; each input window's buffer left as found,
    nothing said of the output window's; the invariant the scratch at some contents and the generator register
    at some state; full shares; nothing owed. -/
def rdat (c : Dev nD) : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => True
  Φ _ := Pipeline.ΦA spec0 c
  q _ := fullShare
  owed _ := 0

/-- The invariant with the scratch as a memref owned at some contents. -/
theorem PhiA_eq (c : Dev nD) :
    (Pipeline.ΦA spec0 c : sProp 𝕄)
      = iprop(iprop((∃ d, owns (c : Thread nD τ) (Memref.whole cc0_scratch0) fullShare d)) ∗ (∃ r, prngReg c r)) := by
  unfold Pipeline.ΦA; rw [scopedRest0_eq]; simp only [owns_whole]; try rfl

set_option maxHeartbeats 1000000 in
/-- The body at any point, on whatever the five buffers hold: the three input buffers come back unchanged, the
    output's and the scratch at something. -/
theorem sound_body (c : Dev nD) (t : Fin cfg0.N) (Y : (w : Fin cfg0.W) → (cfg0.win w).block.Idx → Elt F (cfg0.win w).elt) :
    iprop((rdat m c).Φ t.castSucc ∗ (rdat m c).owesAt () t.castSucc
        ∗ owns (c : Thread nD τ) (st0_0 t) fullShare (Y 0) ∗ owns (c : Thread nD τ) (st0_1 t) fullShare (Y 1)
        ∗ owns (c : Thread nD τ) (st0_2 t) fullShare (Y 2) ∗ owns (c : Thread nD τ) (st0_3 t) fullShare (Y 3))
      ⊢ wp frame (wpE (defs₀ (F := F)) Variants.none c none) Set.univ (bodyAt0 t) (fun _ =>
          iprop((rdat m c).Φ t.succ ∗ (rdat m c).owesAt () t.succ
            ∗ (∃ X, ⌜(rdat m c).after 0 t (Y 0) X⌝ ∗ owns (c : Thread nD τ) (st0_0 t) fullShare X)
            ∗ (∃ X, ⌜(rdat m c).after 1 t (Y 1) X⌝ ∗ owns (c : Thread nD τ) (st0_1 t) fullShare X)
            ∗ (∃ X, ⌜(rdat m c).after 2 t (Y 2) X⌝ ∗ owns (c : Thread nD τ) (st0_2 t) fullShare X)
            ∗ (∃ X, ⌜(rdat m c).after 3 t (Y 3) X⌝ ∗ owns (c : Thread nD τ) (st0_3 t) fullShare X))) := by
  rw [show (rdat m c).owesAt () t.succ = (rdat m c).owesAt () t.castSucc from rfl]
  rw [show (rdat m c).Φ t.succ = Pipeline.ΦA spec0 c from rfl, show (rdat m c).Φ t.castSucc = Pipeline.ΦA spec0 c from rfl, PhiA_eq]
  unfold bodyAt0
  by_cases h0 : t.val % 16 = 0
  · by_cases h1 : t.val % 16 = 15
    · exfalso; omega
    · iintro ⟨⟨⟨%xs, HS⟩, Hg⟩, Ho, H0, H1, H2, H3⟩
      iapply (run_first c (grid0.coords t) _ _ _ _ _ _ _ _ _ _ ((first_iff t).mpr h0) (fun h => h1 ((last_iff t).mp h))
        (Y 0) (Y 1) (Y 2) (Y 3) xs Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]
        · iexists _; iexact HS
        iexact Hg
      isplitl [Ho]; · iexact Ho
      isplitl [H0]
      · iexists (Y 0); isplitr; · ipureintro; exact rfl
        iexact H0
      isplitl [H1]
      · iexists (Y 1); isplitr; · ipureintro; exact rfl
        iexact H1
      isplitl [H2]
      · iexists (Y 2); isplitr; · ipureintro; exact rfl
        iexact H2
      iexists (Y 3); isplitr; · ipureintro; exact trivial
      iexact H3
  · by_cases h1 : t.val % 16 = 15
    · iintro ⟨⟨⟨%xs, HS⟩, Hg⟩, Ho, H0, H1, H2, H3⟩
      iapply (run_last c (grid0.coords t) _ _ _ _ _ _ _ _ _ _ (fun h => h0 ((first_iff t).mp h)) ((last_iff t).mpr h1)
        (Y 0) (Y 1) (Y 2) (Y 3) xs Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]
        · iexists _; iexact HS
        iexact Hg
      isplitl [Ho]; · iexact Ho
      isplitl [H0]
      · iexists (Y 0); isplitr; · ipureintro; exact rfl
        iexact H0
      isplitl [H1]
      · iexists (Y 1); isplitr; · ipureintro; exact rfl
        iexact H1
      isplitl [H2]
      · iexists (Y 2); isplitr; · ipureintro; exact rfl
        iexact H2
      iexists (tile (grid0.coords t) (Y 0) (Y 1) (Y 2) xs); isplitr; · ipureintro; exact trivial
      iexact H3
    · iintro ⟨⟨⟨%xs, HS⟩, Hg⟩, Ho, H0, H1, H2, H3⟩
      iapply (run_mid c (grid0.coords t) _ _ _ _ _ _ _ _ _ _ (fun h => h0 ((first_iff t).mp h)) (fun h => h1 ((last_iff t).mp h))
        (Y 0) (Y 1) (Y 2) (Y 3) xs Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]
        · iexists _; iexact HS
        iexact Hg
      isplitl [Ho]; · iexact Ho
      isplitl [H0]
      · iexists (Y 0); isplitr; · ipureintro; exact rfl
        iexact H0
      isplitl [H1]
      · iexists (Y 1); isplitr; · ipureintro; exact rfl
        iexact H1
      isplitl [H2]
      · iexists (Y 2); isplitr; · ipureintro; exact rfl
        iexact H2
      iexists (Y 3); isplitr; · ipureintro; exact trivial
      iexact H3

/-- The library's body obligation, at every point. -/
theorem body_obligation (c : Dev nD) : (rdat (F := F) m c).BodyObligation (defs₀ (F := F)) Variants.none () Set.univ := fun t Y _ => by
  rw [bigSep_W0, bigSep_W0]
  exact sound_body m c t Y

/-- Each window's array is held at the full share: the output's by the library, an input's by the proof data. -/
theorem share_full (c : Dev nD) (w : Fin cfg0.W) : (rdat (F := F) m c).share w = fullShare := by
  unfold RDat.share; split <;> rfl

set_option backward.isDefEq.respectTransparency.types false in
/-- At the compiled mesh, for any values, from any memory with zero counters: every weakly fair execution of @main
    on the TensorCores terminates, every window's array then at some contents the relations allow (an input's at its
    entry contents), every other unscoped buffer as it was. -/
theorem run_main : θ_run defs (onTc (τ := τ) (main (F := F))) (s₀ m ρ) (RDat.FramePost cfg0 (rdat m) (V m)) :=
  RDat.θ_run_frame cfgs 0 launch0 defs₀ Variants.none (rdat m) m ρ main
    (hbody := body_obligation m) (hshare := share_full m) (howed := fun _ _ => rfl) (V := V m)
    (hmain := hmain m Variants.none) (hA := fun _ _ => rfl) (hΦ := fun _ _ => rfl)

/-- The three argument arrays end as launched: each is an input window's array, never written back, so it may
    hold only its entry contents, and the region is entered with the launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((congrFun ((rdat m c).ArrAt_in 0 rfl cfg0.N) _).mp ((h c).1 0)).trans (V_main_arg0 m c),
     ((congrFun ((rdat m c).ArrAt_in 1 rfl cfg0.N) _).mp ((h c).1 1)).trans (V_main_arg1 m c),
     ((congrFun ((rdat m c).ArrAt_in 2 rfl cfg0.N) _).mp ((h c).1 2)).trans (V_main_arg2 m c)⟩) (run_main m ρ)

end Cert.Kernel.WordFrame

end
-- ==== Proof.Claims.lean ====
/-
  The five claims, assembled.

  * The word-level program leaves its arguments unchanged: the relational frame run of its pipeline, which says
    of the output nothing and of each input window that the body leaves its buffer as found.
  * The idealized reference leaves its arguments unchanged: its run, one host operation after another, with
    the result dropped.
  * The idealization rewrote no operation, so there is nothing for it to preserve.
  * The idealized kernel's run is taken here as a hypothesis, `KernelRuns`: it ends with the grouped product of
    its arguments in its result and the arguments unchanged. Dropping the result gives its frame claim.
  * The two idealized programs, from memories that agree on the arguments, end with equal results: the common
    value is the grouped product of the arguments. The kernel's side is the hypothesis. The reference's side is
    its run, whose result term is, entry by entry, that product (the reshapes and broadcasts read back to the
    codes and scales at `(o, k)` and `(o, k / 128)`). The kernel adds the product's 4096 terms tile by tile, sixteen
    partial sums of 256, where the reference adds them in one sum: the two agree by commutativity and
    associativity of addition on the extended reals alone, so the precondition on the inputs is never opened.
-/
import proofs.«115205_j37082747634166_1_alg».proof.Defs
import proofs.«115205_j37082747634166_1_alg».proof.Proof.Gen.Kernel
import proofs.«115205_j37082747634166_1_alg».proof.Proof.Gen.KernelIdeal
import proofs.«115205_j37082747634166_1_alg».proof.Proof.Gen.ReferenceIdeal
import proofs.«115205_j37082747634166_1_alg».proof.Proof.Gen.Pre_finite_inputs
import proofs.«115205_j37082747634166_1_alg».proof.Proof.Gen.ReferenceIdeal.Run
import proofs.«115205_j37082747634166_1_alg».proof.Proof.Gen.ReferenceIdeal.Read
import proofs.«115205_j37082747634166_1_alg».proof.Proof.ReferenceProduct
import proofs.«115205_j37082747634166_1_alg».proof.Proof.WordFrame
import proofs.«115205_j37082747634166_1_alg».proof.Proof.LibGroupedProduct

noncomputable section

open Idealize.ShloMosaic Idealize.ShloMosaic.TcCoe Idealize.SL.Sem

namespace Cert.Proof.Claims

/-- The word-level program's frame: the relational frame run, at the bit-exact instance. -/
theorem frame_word : Cert.frame_Kernel := fun m ρ _ => Cert.Kernel.WordFrame.frame (F := Bits) m ρ

/-- The reference's frame: its run with the result dropped. -/
theorem frame_ref : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- The idealized kernel's run: from any memory with zero counters, every weakly fair execution terminates with
    the result array at the grouped product of the argument arrays, and the argument arrays unchanged. -/
def KernelRuns : Prop :=
  ∀ (m : (ℓ : Loc Cert.KernelIdeal.nD Cert.KernelIdeal.τ Cert.KernelIdeal.sig) → Buf (Elt Ideal) ℓ) (ρ : Dev Cert.KernelIdeal.nD → PrngReg),
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v0)
          = Cert.GroupedProduct.product (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

/-- The idealized kernel's frame: its run with the result dropped. -/
theorem frame_ideal (h : KernelRuns) : Cert.frame_KernelIdeal := fun m ρ _ =>
  (θ_run Cert.KernelIdeal.defs _ _).mono (fun _ hr c => (hr c).2) (h m ρ)

/-- Both idealized programs end with the grouped product of the arguments: the kernel by its run, the reference by
    its run and the reading of its result term entry by entry, at arguments that agree. -/
theorem algebraic (h : KernelRuns) : Cert.algebraic_KernelIdeal_ReferenceIdeal := by
  intro m ρ m' ρ' _ hagree
  refine ⟨fun c => Cert.GroupedProduct.product (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), h m ρ, ?_⟩
  refine (θ_run Cert.ReferenceIdeal.defs _ _).mono (fun _ hr c => ⟨(hr c).1.trans ?_, (hr c).2⟩)
    (Cert.ReferenceIdeal.Value.run (F := Ideal) m' ρ')
  rw [Cert.ReferenceIdeal.Read.val_main_v8_eq, Cert.ReferenceIdeal.RefValue.reference_eq,
    (hagree c).1, (hagree c).2.1, (hagree c).2.2]

/-- Everything claimed, from the idealized kernel's run. -/
theorem claim_of (h : KernelRuns) : Cert.Claim :=
  ⟨Cert.Kernel.Gen.facts, Cert.KernelIdeal.Gen.facts, Cert.ReferenceIdeal.Gen.facts, Cert.Pre_finite_inputs.Gen.facts,
    frame_word, frame_ideal h, frame_ref, preserves, algebraic h⟩

end Cert.Proof.Claims

end
-- ==== Proof.TileRun.lean ====
/-
  One grid point of the kernel, run on whatever its five buffers hold.

  The body keeps a running sum in a scratch buffer `acc` of the output block's shape. At a point with tile
  number `k` (the third grid coordinate) it: zeroes `acc` when `k = 0`; reads the two columns `2k, 2k+1` of the
  scale block, the code tile and the `x` tile; replaces `acc` by `acc + x_tile · wᵀ` (the generated payload
  `k0_pay2`: `w` the codes less 8 times their group's scale); and copies `acc` to the output block when
  `k = 15`. Three theorems, one per way the two conditions fall (they cannot both hold), each generic in the
  number format: from the five buffers owned at any contents `x0 x1 x2 x3 xs`, the body runs without a fault and
  hands them back with the inputs unchanged, the scratch at `tile i x0 x1 x2 ·` of what it held (of zeros, at
  the first tile), and the output block untouched or, at the last tile, at the scratch's new contents.
-/
import proofs.«115205_j37082747634166_1_alg».proof.Proof.Gen.KernelIdeal.Launch
import proofs.«115205_j37082747634166_1_alg».proof.Proof.Gen.KernelIdeal.Skeleton
import proofs.«115205_j37082747634166_1_alg».proof.Proof.Gen.KernelIdeal.Points
import proofs.«115205_j37082747634166_1_alg».proof.Proof.Gen.KernelIdeal.Frame
import Idealize.ShloMosaic.Lib.Pipeline.FrameBody
import Idealize.ShloMosaic.Lib.Pipeline.Value
import Idealize.ShloMosaic.Lib.Tactic

set_option maxRecDepth 16384

noncomputable section

namespace Cert.KernelIdeal.TileRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first-tile condition of the body's first `scf.if`, as the skeleton spells it. -/
abbrev condFirst (i : grid0.Coords) : Prop :=
  (Scalar.cmpi .ne (Scalar.extui (Scalar.cmpi .eq (BitVec.ofNat 32 (i 2).val) 0#32)) 0#32) = 1#1
/-- The last-tile condition of its second. -/
abbrev condLast (i : grid0.Coords) : Prop := k0_cond2 i = 1#1

/-- The two columns of the scale block that tile `i 2` reads. -/
abbrev scaleRect (i : grid0.Coords) : Rect S2048x32 := Rect.unit (s := S2048x32) (k0_off1 i) S2048x2.size (k0_off1_inb i)

/-- What one tile makes of the scratch contents `xs`: `xs + x0 · wᵀ`, `w` from the codes `x1` and the tile's two
    scale columns of `x2`. -/
def tile (i : grid0.Coords) (x0 : Vec F S1536x256 .f32) (x1 : Vec F S2048x256 .i32) (x2 : Vec F S2048x32 .f32)
    (xs : Vec F S1536x2048 .f32) : Vec F S1536x2048 .f32 :=
  k0_pay2 (View.ld x2 (scaleRect i)) x1 x0 xs

theorem hzero2 : (![0, 0] : Fin 2 → Nat) = fun _ => 0 := funext fun a => by fin_cases a <;> rfl

/-- The one whole-block store covers the block. -/
theorem cover_whole {e : EltTy} {S : Shape} {Val : EltTy → Type} {off : Fin S.rank → Nat} (h : off = fun _ => 0)
    (inb : ∀ a, off a + S.size a ≤ S.size a) (w : S.Idx → Val e) (L : List (View.Piece Val S e)) (y : S.Idx) :
    ∃ p ∈ ((⟨Rect.unit off S.size inb, w⟩ : View.Piece Val S e) :: L), y ∈ p.1.set :=
  ⟨_, List.mem_cons_self, View.mem_set_unit_zero h inb y⟩

set_option maxHeartbeats 1000000 in
/-- A middle tile: neither condition holds. -/
theorem run_mid (c : Dev nD) (i : grid0.Coords) (arg3 : Memref sig .tc .vmem S1536x256 .f32) (harg3 : arg3.IsWhole) (arg4 : Memref sig .tc .vmem S2048x256 .i32) (harg4 : arg4.IsWhole) (arg5 : Memref sig .tc .vmem S2048x32 .f32) (harg5 : arg5.IsWhole) (arg6 : Memref sig .tc .vmem S1536x2048 .f32) (harg6 : arg6.IsWhole) (arg7 : Memref sig .tc .vmem S1536x2048 .f32) (harg7 : arg7.IsWhole)
    (hc0 : ¬condFirst i) (hc1 : ¬condLast i)
    (x0 : Vec F S1536x256 .f32) (x1 : Vec F S2048x256 .i32) (x2 : Vec F S2048x32 .f32) (x3 xs : Vec F S1536x2048 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (tile i x0 x1 x2 xs)) -∗ K ⟨⟩))
      ⊢ wp frame (wpE (defs₀ (F := F)) Variants.none c none) E (cc0__rtn_marlin_kernel i arg3 harg3 arg4 harg4 arg5 harg5 arg6 harg6 arg7 harg7) K := by
  simp only [cc0__rtn_marlin_kernel_eq_skeleton]; unfold cc0__rtn_marlin_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  rw [View.read_writes_eq_canon _ _ _ (cover_whole hzero2 _ _ _), View.canon_unit_zero hzero2]
  simp only [View.readAt_eq_ld, harg3.read_unread, harg4.read_unread, harg5.read_unread, harg7.read_unread,
    View.ld_unit_zero (S := S2048x256) hzero2, View.ld_unit_zero (S := S1536x256) hzero2, View.ld_unit_zero (S := S1536x2048) hzero2]
  rfl

set_option maxHeartbeats 1000000 in
/-- The first tile: the scratch is zeroed first, whatever it held. -/
theorem run_first (c : Dev nD) (i : grid0.Coords) (arg3 : Memref sig .tc .vmem S1536x256 .f32) (harg3 : arg3.IsWhole) (arg4 : Memref sig .tc .vmem S2048x256 .i32) (harg4 : arg4.IsWhole) (arg5 : Memref sig .tc .vmem S2048x32 .f32) (harg5 : arg5.IsWhole) (arg6 : Memref sig .tc .vmem S1536x2048 .f32) (harg6 : arg6.IsWhole) (arg7 : Memref sig .tc .vmem S1536x2048 .f32) (harg7 : arg7.IsWhole)
    (hc0 : condFirst i) (hc1 : ¬condLast i)
    (x0 : Vec F S1536x256 .f32) (x1 : Vec F S2048x256 .i32) (x2 : Vec F S2048x32 .f32) (x3 xs : Vec F S1536x2048 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (tile i x0 x1 x2 (k0_pay1 (F := F)))) -∗ K ⟨⟩))
      ⊢ wp frame (wpE (defs₀ (F := F)) Variants.none c none) E (cc0__rtn_marlin_kernel i arg3 harg3 arg4 harg4 arg5 harg5 arg6 harg6 arg7 harg7) K := by
  simp only [cc0__rtn_marlin_kernel_eq_skeleton]; unfold cc0__rtn_marlin_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  sl_unfold_words
  rw [View.read_writes_eq_canon _ _ _ (cover_whole hzero2 _ _ _), View.canon_cons_unit_zero hzero2]
  simp only [View.readAt_eq_ld, harg3.read_unread, harg4.read_unread, harg5.read_unread, harg7.read_unread,
    View.ld_unit_zero (S := S2048x256) hzero2, View.ld_unit_zero (S := S1536x256) hzero2, View.ld_unit_zero (S := S1536x2048) hzero2]
  rw [View.readCov_unit_zero (S := S1536x2048) arg7.view hzero2]
  rfl

set_option maxHeartbeats 1000000 in
/-- The last tile: the new scratch contents are copied to the output block. -/
theorem run_last (c : Dev nD) (i : grid0.Coords) (arg3 : Memref sig .tc .vmem S1536x256 .f32) (harg3 : arg3.IsWhole) (arg4 : Memref sig .tc .vmem S2048x256 .i32) (harg4 : arg4.IsWhole) (arg5 : Memref sig .tc .vmem S2048x32 .f32) (harg5 : arg5.IsWhole) (arg6 : Memref sig .tc .vmem S1536x2048 .f32) (harg6 : arg6.IsWhole) (arg7 : Memref sig .tc .vmem S1536x2048 .f32) (harg7 : arg7.IsWhole)
    (hc0 : ¬condFirst i) (hc1 : condLast i)
    (x0 : Vec F S1536x256 .f32) (x1 : Vec F S2048x256 .i32) (x2 : Vec F S2048x32 .f32) (x3 xs : Vec F S1536x2048 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (tile i x0 x1 x2 xs) ∗ owns (c : Thread nD τ) arg7 fullShare (tile i x0 x1 x2 xs)) -∗ K ⟨⟩))
      ⊢ wp frame (wpE (defs₀ (F := F)) Variants.none c none) E (cc0__rtn_marlin_kernel i arg3 harg3 arg4 harg4 arg5 harg5 arg6 harg6 arg7 harg7) K := by
  simp only [cc0__rtn_marlin_kernel_eq_skeleton]; unfold cc0__rtn_marlin_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    sl_unfold_words
    rw [View.read_writes_eq_canon _ _ _ (cover_whole hzero2 _ _ _), View.canon_cons_unit_zero hzero2]
    simp only [View.readAt_eq_ld, harg3.read_unread, harg4.read_unread, harg5.read_unread, harg7.read_unread,
      View.ld_unit_zero (S := S2048x256) hzero2, View.ld_unit_zero (S := S1536x256) hzero2, View.ld_unit_zero (S := S1536x2048) hzero2]
    rw [View.readCov_unit_zero (S := S1536x2048) arg7.view hzero2]
    rfl
  iexists _; isplitr
  swap; · iexact HS
  ipureintro
  sl_unfold_words
  rw [View.read_writes_eq_canon _ _ _ (cover_whole hzero2 _ _ _), View.canon_cons_unit_zero hzero2]
  simp only [View.readAt_eq_ld, harg3.read_unread, harg4.read_unread, harg5.read_unread, harg7.read_unread,
    View.ld_unit_zero (S := S2048x256) hzero2, View.ld_unit_zero (S := S1536x256) hzero2, View.ld_unit_zero (S := S1536x2048) hzero2]
  rfl

end Cert.KernelIdeal.TileRun

end
-- ==== Proof.Schedule.lean ====
/-
  The grid in closed form. The grid has 3 × 6 × 16 points, enumerated with the tile number fastest: point `t` has
  row-block `t / 96`, column-block `t / 16 % 6` and tile `t % 16`. Every fact here is one decision over the 288
  points: which block of each array a point's windows name, where the first-tile and last-tile conditions hold,
  which two scale columns the tile reads, and where the output window is written back.
-/
import proofs.«115205_j37082747634166_1_alg».proof.Proof.TileRun

set_option maxRecDepth 16384

noncomputable section

namespace Cert.KernelIdeal.Schedule

open Cert.KernelIdeal Cert.KernelIdeal.Gen Cert.KernelIdeal.TileRun
open Idealize.ShloMosaic Idealize.ShloMosaic.TcCoe

theorem N_eq : cfg0.N = 288 := N_0

/-- The tile number. -/
theorem tile_no : ∀ t : Fin cfg0.N, (grid0.coords t 2).val = t.val % 16 :=
  (by decide +kernel : ∀ t : Fin grid0.N, (grid0.coords t 2).val = t.val % 16)

/-- The blocks the four windows name at a point: `x`'s at (row-block, tile), the codes' at (column-block, tile),
    the scales' at (column-block, 0), the product's at (row-block, column-block). -/
theorem index0 : ∀ t : Fin cfg0.N, (cfg0.win 0).index t 0 = t.val / 96 ∧ (cfg0.win 0).index t 1 = t.val % 16 :=
  (by decide +kernel : ∀ t : Fin grid0.N, win0_0.index t 0 = t.val / 96 ∧ win0_0.index t 1 = t.val % 16)
theorem index1 : ∀ t : Fin cfg0.N, (cfg0.win 1).index t 0 = t.val / 16 % 6 ∧ (cfg0.win 1).index t 1 = t.val % 16 :=
  (by decide +kernel : ∀ t : Fin grid0.N, win0_1.index t 0 = t.val / 16 % 6 ∧ win0_1.index t 1 = t.val % 16)
theorem index2 : ∀ t : Fin cfg0.N, (cfg0.win 2).index t 0 = t.val / 16 % 6 ∧ (cfg0.win 2).index t 1 = 0 :=
  (by decide +kernel : ∀ t : Fin grid0.N, win0_2.index t 0 = t.val / 16 % 6 ∧ win0_2.index t 1 = 0)
theorem index3 : ∀ t : Fin cfg0.N, (cfg0.win 3).index t 0 = t.val / 96 ∧ (cfg0.win 3).index t 1 = t.val / 16 % 6 :=
  (by decide +kernel : ∀ t : Fin grid0.N, win0_3.index t 0 = t.val / 96 ∧ win0_3.index t 1 = t.val / 16 % 6)

/-- The two scale columns tile `k` reads start at column `2k`. -/
theorem scale_off : ∀ t : Fin cfg0.N, k0_off1 (grid0.coords t) 0 = 0 ∧ k0_off1 (grid0.coords t) 1 = 2 * (t.val % 16) :=
  (by decide +kernel : ∀ t : Fin grid0.N, k0_off1 (grid0.coords t) 0 = 0 ∧ k0_off1 (grid0.coords t) 1 = 2 * (t.val % 16))

/-- The body's first condition holds at the first tile of each output block, its second at the last. -/
theorem first_iff : ∀ t : Fin cfg0.N, condFirst (grid0.coords t) ↔ t.val % 16 = 0 :=
  (by decide +kernel : ∀ t : Fin grid0.N, condFirst (grid0.coords t) ↔ t.val % 16 = 0)
theorem last_iff : ∀ t : Fin cfg0.N, condLast (grid0.coords t) ↔ t.val % 16 = 15 :=
  (by decide +kernel : ∀ t : Fin grid0.N, condLast (grid0.coords t) ↔ t.val % 16 = 15)

/-- The output window is idle except at the last tile, where it is written back. -/
theorem idle3_iff : ∀ t : Fin cfg0.N, cfg0.idle 3 (grid0.coords t) = true ↔ ¬ t.val % 16 = 15 :=
  (by decide +kernel : ∀ t : Fin grid0.N, idle0 3 (grid0.coords t) = true ↔ ¬ t.val % 16 = 15)

end Cert.KernelIdeal.Schedule

end
-- ==== Proof.LibClippedBlocks.lean ====
/-
  Blocks that overhang their array. A window's block at block index `ix`, of `k` coordinates on an axis of an
  array of `d`, starts at `ix * k`; when it runs past the array's end only its first `d - ix * k` coordinates are
  moved by a transfer. So, axis by axis, a coordinate `j < k` of the block is moved exactly when the array
  coordinate `ix * k + j` it stands for exists (`lt_extent_iff`), a block index is moved exactly when it stands
  for an index of the array (`moved_iff_inside`), and a buffer filled from the array's block holds, at a moved
  index, the block's entry there (`fill_of_moved`).
-/
import Idealize.ShloMosaic.Lib.Pipeline

namespace Idealize.ShloMosaic.Pipeline

/-- A coordinate of the block is among those moved iff the array has the coordinate it stands for. -/
theorem Clip.lt_extent_iff {ix k d : Nat} {c : Clip} (h : Clip.Ok ix k d c) {j : Nat} (hj : j < k) :
    j < c.extent k ↔ ix * k + j < d := by
  cases c with
  | none =>
    have h' : (ix + 1) * k ≤ d := h
    rw [Nat.succ_mul] at h'
    show j < k ↔ _
    exact ⟨fun _ => by omega, fun _ => hj⟩
  | some n =>
    obtain ⟨_, _, e⟩ : 0 < n ∧ n < k ∧ ix * k + n = d := h
    show j < n ↔ _
    omega

namespace Window

variable {sig : RefSig} {G : Grid} (w : Window sig G)

/-- A block index is moved iff, on every axis, it stands for a coordinate of the array. -/
theorem moved_iff_inside (i : G.Coords) (j : w.block.Idx) :
    w.moved i j = true ↔ ∀ a, w.indexMap i a * w.size a + (j a).val < w.shape.size a := by
  rw [w.moved_iff i j]
  exact forall_congr' fun a => Clip.lt_extent_iff (w.hclip i a) (j a).isLt

/-- Inside the cut block, every coordinate stands for one of the array. -/
theorem inside_of_lt_xsize (i : G.Coords) (a : Fin w.shape.rank) {n : Nat} (h : n < w.xsize i a) :
    w.indexMap i a * w.size a + n < w.shape.size a :=
  (Clip.lt_extent_iff (w.hclip i a) (Nat.lt_of_lt_of_le h (w.xsize_le i a))).mp h

/-- and a coordinate of the block that stands for one of the array is inside the cut block. -/
theorem lt_xsize_of_inside (i : G.Coords) (a : Fin w.shape.rank) {n : Nat} (hn : n < w.size a)
    (h : w.indexMap i a * w.size a + n < w.shape.size a) : n < w.xsize i a :=
  (Clip.lt_extent_iff (w.hclip i a) hn).mpr h

/-- A filled buffer holds, at a moved index, the filling's entry there. -/
theorem fill_of_moved {α : Type} (i : G.Coords) (d : w.block.Idx → α) (g : (w.xblock i).Idx → α) {j : w.block.Idx}
    (h : w.moved i j = true) : w.fill i d g j = g fun a => ⟨(j a).val, (w.moved_iff i j).mp h a⟩ := by
  unfold fill; rw [dif_pos h]

end Window

end Idealize.ShloMosaic.Pipeline
-- ==== Proof.Blocks.lean ====
/-
  What the three input buffers hold when the body runs, entry by entry.

  A buffer filled from an array's block (whatever it held before, `d`) holds, at every block index that stands for
  an index of the array, the array's entry there: row `r` of the `x` buffer at a point of row-block `bi` and tile `k`
  is row `bi * 1536 + r` of `x`, columns `k * 256 …`; row `cc` of the code buffer at column-block `bj` is row
  `bj * 2048 + cc` of the codes, the same columns; row `cc` of the scale buffer is row `bj * 2048 + cc` of the scales,
  all 32 columns. Past the arrays' ends (the last row-block has 1024 rows of `x`, the last column-block 768 rows of
  codes and scales) nothing is said. Likewise a block of the product array read at an index inside it.
-/
import proofs.«115205_j37082747634166_1_alg».proof.Proof.Schedule
import proofs.«115205_j37082747634166_1_alg».proof.Proof.LibClippedBlocks
import Idealize.ShloMosaic.Lib.ValueIdx

set_option maxRecDepth 16384

noncomputable section

namespace Cert.KernelIdeal.Blocks

open Cert.KernelIdeal Cert.KernelIdeal.Gen Cert.KernelIdeal.Schedule
open Idealize.ShloMosaic Idealize.ShloMosaic.TcCoe Idealize.ShloMosaic.ValueIdx
open Idealize.ShloMosaic.Pipeline (Window)

variable {F : FTy → Type} [FloatOps F]

variable (m : (ℓ : Loc nD τ sig) → Buf (Elt F) ℓ)

/-- A block of `x` read at an index: the array's entry at the block's offset plus the index. -/
theorem xblock_apply (c : Dev nD) (t : Fin cfg0.N) (y : (win0_0.xblock (grid0.coords t)).Idx) (k : S4096x4096.Idx)
    (hk0 : (k 0).val = t.val / 96 * 1536 + (y 0).val) (hk1 : (k 1).val = t.val % 16 * 256 + (y 1).val) :
    iblk m c 0 t y = (m ((c : Thread nD τ).loc main_arg0) : S4096x4096.Idx → Elt F .f32) k := by
  unfold iblk
  rw [View.read_apply]
  show V m c main_arg0 _ = m (c.tc.loc main_arg0) _
  unfold V
  congr 1
  funext a
  apply Fin.ext
  match a with
  | ⟨0, _⟩ => show win0_0.index t 0 * 1536 + 1 * (y 0).val = (k 0).val; rw [(index0 t).1, hk0]; omega
  | ⟨1, _⟩ => show win0_0.index t 1 * 256 + 1 * (y 1).val = (k 1).val; rw [(index0 t).2, hk1]; omega

theorem qblock_apply (c : Dev nD) (t : Fin cfg0.N) (y : (win0_1.xblock (grid0.coords t)).Idx) (k : S11008x4096.Idx)
    (hk0 : (k 0).val = t.val / 16 % 6 * 2048 + (y 0).val) (hk1 : (k 1).val = t.val % 16 * 256 + (y 1).val) :
    iblk m c 1 t y = (m ((c : Thread nD τ).loc main_arg1) : S11008x4096.Idx → Elt F .i32) k := by
  unfold iblk
  rw [View.read_apply]
  show V m c main_arg1 _ = m (c.tc.loc main_arg1) _
  unfold V
  congr 1
  funext a
  apply Fin.ext
  match a with
  | ⟨0, _⟩ => show win0_1.index t 0 * 2048 + 1 * (y 0).val = (k 0).val; rw [(index1 t).1, hk0]; omega
  | ⟨1, _⟩ => show win0_1.index t 1 * 256 + 1 * (y 1).val = (k 1).val; rw [(index1 t).2, hk1]; omega

theorem sblock_apply (c : Dev nD) (t : Fin cfg0.N) (y : (win0_2.xblock (grid0.coords t)).Idx) (k : S11008x32.Idx)
    (hk0 : (k 0).val = t.val / 16 % 6 * 2048 + (y 0).val) (hk1 : (k 1).val = (y 1).val) :
    iblk m c 2 t y = (m ((c : Thread nD τ).loc main_arg2) : S11008x32.Idx → Elt F .f32) k := by
  unfold iblk
  rw [View.read_apply]
  show V m c main_arg2 _ = m (c.tc.loc main_arg2) _
  unfold V
  congr 1
  funext a
  apply Fin.ext
  match a with
  | ⟨0, _⟩ => show win0_2.index t 0 * 2048 + 1 * (y 0).val = (k 0).val; rw [(index2 t).1, hk0]; omega
  | ⟨1, _⟩ => show win0_2.index t 1 * 32 + 1 * (y 1).val = (k 1).val; rw [(index2 t).2, hk1]; omega

/-- A block of the product array read at an index, for any contents `A` of that array. -/
theorem yblock_apply (c : Dev nD) (A : Buf (Elt F) ((c : Thread nD τ).loc main_v0)) (t : Fin cfg0.N)
    (y : (win0_3.xblock (grid0.coords t)).Idx) (k : S4096x11008.Idx)
    (hk0 : (k 0).val = t.val / 96 * 1536 + (y 0).val) (hk1 : (k 1).val = t.val / 16 % 6 * 2048 + (y 1).val) :
    (win0_3.blk t).view.read (Elt F) A y = (A : S4096x11008.Idx → Elt F .f32) k := by
  rw [View.read_apply]
  show A _ = A _
  congr 1
  funext a
  apply Fin.ext
  match a with
  | ⟨0, _⟩ => show win0_3.index t 0 * 1536 + 1 * (y 0).val = (k 0).val; rw [(index3 t).1, hk0]; omega
  | ⟨1, _⟩ => show win0_3.index t 1 * 2048 + 1 * (y 1).val = (k 1).val; rw [(index3 t).2, hk1]; omega

/-- The `x` buffer, filled from its block over anything, at a row that stands for a row of `x`. -/
theorem xheld (c : Dev nD) (t : Fin cfg0.N) (d : S1536x256.Idx → Elt F .f32) (r : Fin 1536) (kk : Fin 256)
    (hr : t.val / 96 * 1536 + r.val < 4096) :
    win0_0.fill (grid0.coords t) d (iblk m c 0 t) (ix2 r kk)
      = (m ((c : Thread nD τ).loc main_arg0) : S4096x4096.Idx → Elt F .f32)
          (ix2 ⟨t.val / 96 * 1536 + r.val, hr⟩ ⟨t.val % 16 * 256 + kk.val, by have := kk.isLt; omega⟩) := by
  have hm : win0_0.moved (grid0.coords t) (ix2 r kk) = true := (win0_0.moved_iff_inside _ _).mpr fun a => by
    match a with
    | ⟨0, _⟩ => show win0_0.index t 0 * 1536 + r.val < 4096; rw [(index0 t).1]; exact hr
    | ⟨1, _⟩ => show win0_0.index t 1 * 256 + kk.val < 4096; rw [(index0 t).2]; have := kk.isLt; omega
  rw [win0_0.fill_of_moved _ _ _ hm]
  exact xblock_apply m c t _ _ rfl rfl

theorem qheld (c : Dev nD) (t : Fin cfg0.N) (d : S2048x256.Idx → Elt F .i32) (cc : Fin 2048) (kk : Fin 256)
    (hc : t.val / 16 % 6 * 2048 + cc.val < 11008) :
    win0_1.fill (grid0.coords t) d (iblk m c 1 t) (ix2 cc kk)
      = (m ((c : Thread nD τ).loc main_arg1) : S11008x4096.Idx → Elt F .i32)
          (ix2 ⟨t.val / 16 % 6 * 2048 + cc.val, hc⟩ ⟨t.val % 16 * 256 + kk.val, by have := kk.isLt; omega⟩) := by
  have hm : win0_1.moved (grid0.coords t) (ix2 cc kk) = true := (win0_1.moved_iff_inside _ _).mpr fun a => by
    match a with
    | ⟨0, _⟩ => show win0_1.index t 0 * 2048 + cc.val < 11008; rw [(index1 t).1]; exact hc
    | ⟨1, _⟩ => show win0_1.index t 1 * 256 + kk.val < 4096; rw [(index1 t).2]; have := kk.isLt; omega
  rw [win0_1.fill_of_moved _ _ _ hm]
  exact qblock_apply m c t _ _ rfl rfl

theorem sheld (c : Dev nD) (t : Fin cfg0.N) (d : S2048x32.Idx → Elt F .f32) (cc : Fin 2048) (g : Fin 32)
    (hc : t.val / 16 % 6 * 2048 + cc.val < 11008) :
    win0_2.fill (grid0.coords t) d (iblk m c 2 t) (ix2 cc g)
      = (m ((c : Thread nD τ).loc main_arg2) : S11008x32.Idx → Elt F .f32) (ix2 ⟨t.val / 16 % 6 * 2048 + cc.val, hc⟩ g) := by
  have hm : win0_2.moved (grid0.coords t) (ix2 cc g) = true := (win0_2.moved_iff_inside _ _).mpr fun a => by
    match a with
    | ⟨0, _⟩ => show win0_2.index t 0 * 2048 + cc.val < 11008; rw [(index2 t).1]; exact hc
    | ⟨1, _⟩ => show win0_2.index t 1 * 32 + g.val < 32; rw [(index2 t).2]; have := g.isLt; omega
  rw [win0_2.fill_of_moved _ _ _ hm]
  exact sblock_apply m c t _ _ rfl rfl

end Cert.KernelIdeal.Blocks

end
-- ==== Proof.TilePayload.lean ====
/-
  One tile of the kernel's arithmetic, read at an index, at the ideal values.

  The tile value is the accumulator plus the product of a [1536,256] block of the left matrix with the transpose
  of a [2048,256] block of weights; a weight is rebuilt from its integer code and the scale of its group of 128
  columns, `(q[c, k] - 8) * s[c, k / 128]`. The codes are split [2048,256] → [2048,2,128] (column `k` goes to group
  `k / 128`, lane `k % 128`), the scales are read as [2048,2,1] and repeated along the lanes, and the weights are merged
  back to [2048,256]; each of these steps reads one element of its operand, so the tile at `(r, c)` is the accumulator
  there plus the sum over the 256 columns of `x[r, k] * ((q[c, k] - 8) * s[c, k / 128])`.
-/
import proofs.«115205_j37082747634166_1_alg».proof.Proof.Gen.KernelIdeal.Skeleton
import proofs.«115205_j37082747634166_1_alg».proof.Proof.LibGroupedProduct
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.TileValue

open Cert.KernelIdeal Cert.KernelIdeal.Gen Idealize.ShloMosaic Idealize.ShloMosaic.ValueIdx

/-! ## The layout steps, each read at an index -/

section Layout
variable {α : Type}

/-- Splitting the 256 columns into 2 groups of 128 lanes: element `(c, g, l)` is the operand at column `g * 128 + l`. -/
theorem split_apply (x : S2048x256.Idx → α) (c : Fin 2048) (g : Fin 2) (l : Fin 128) :
    shapeCast S2048x2x128 x shapeCasts_S2048x256_S2048x2x128 (ix3 c g l)
      = x (ix2 c ⟨g.val * 128 + l.val, by have := g.isLt; have := l.isLt; omega⟩) :=
  shapeCast_apply x shapeCasts_S2048x256_S2048x2x128 _ _ (by
    rw [Shape.rowMajor_val_two, Shape.rowMajor_val_three]
    show c.val * 256 + (g.val * 128 + l.val) = (c.val * 2 + g.val) * 128 + l.val
    omega)

/-- Merging the groups back: element `(c, k)` is the operand at group `k / 128`, lane `k % 128`. -/
theorem merge_apply (y : S2048x2x128.Idx → α) (c : Fin 2048) (k : Fin 256) :
    shapeCast S2048x256 y shapeCasts_S2048x2x128_S2048x256 (ix2 c k)
      = y (ix3 c ⟨k.val / 128, by have := k.isLt; omega⟩ ⟨k.val % 128, Nat.mod_lt _ (by decide)⟩) :=
  shapeCast_apply y shapeCasts_S2048x2x128_S2048x256 _ _ (by
    rw [Shape.rowMajor_val_three, Shape.rowMajor_val_two]
    show (c.val * 2 + k.val / 128) * 128 + k.val % 128 = c.val * 256 + k.val
    omega)

/-- The scales read with a trailing unit axis. -/
theorem unit_apply (x : S2048x2.Idx → α) (c : Fin 2048) (g : Fin 2) (u : Fin 1) :
    shapeCast S2048x2x1 x shapeCasts_S2048x2_S2048x2x1 (ix3 c g u) = x (ix2 c g) :=
  shapeCast_apply x shapeCasts_S2048x2_S2048x2x1 _ _ (by
    have hu : u.val = 0 := by omega
    rw [Shape.rowMajor_val_two, Shape.rowMajor_val_three]
    show c.val * 2 + g.val = (c.val * 2 + g.val) * 1 + u.val
    omega)

/-- Repeating along the lanes: element `(c, g, l)` is the operand at `(c, g, 0)`. -/
theorem lanes_apply (x : S2048x2x1.Idx → α) (c : Fin 2048) (g : Fin 2) (l : Fin 128) :
    broadcastTo S2048x2x128 x broadcasts_S2048x2x1_S2048x2x128 (ix3 c g l) = x (ix3 c g (0 : Fin 1)) :=
  broadcastTo_apply x broadcasts_S2048x2x1_S2048x2x128 _ _ (fun a => match a with
    | ⟨0, _⟩ => by show c.val = if (2048 : Nat) = 1 then 0 else c.val; rw [if_neg (by decide)]
    | ⟨1, _⟩ => by show g.val = if (2 : Nat) = 1 then 0 else g.val; rw [if_neg (by decide)]
    | ⟨2, _⟩ => by show 0 = if (1 : Nat) = 1 then 0 else l.val; rw [if_pos rfl])

end Layout

/-! ## The product, read at an index -/

section Product

theorem lhs_row (i : S1536x2048.Idx) (q : dot_S1536x256_S2048x256_S1536x2048_1_1_0_0_n_n.contr.Idx) : (dot_S1536x256_S2048x256_S1536x2048_1_1_0_0_n_n.lhsIdx i q 0).val = (i 0).val := by
  unfold DotDims.lhsIdx
  rw [dif_neg (show ¬(0 : Fin S1536x256.rank) ∈ dot_S1536x256_S2048x256_S1536x2048_1_1_0_0_n_n.lhsBatch by decide),
    dif_pos (show (0 : Fin S1536x256.rank) ∈ dot_S1536x256_S2048x256_S1536x2048_1_1_0_0_n_n.lhsNonContracting by decide)]
  rfl
theorem lhs_col (i : S1536x2048.Idx) (q : dot_S1536x256_S2048x256_S1536x2048_1_1_0_0_n_n.contr.Idx) : (dot_S1536x256_S2048x256_S1536x2048_1_1_0_0_n_n.lhsIdx i q 1).val = (q ⟨0, by decide⟩).val :=
  dot_S1536x256_S2048x256_S1536x2048_1_1_0_0_n_n.lhsIdx_val_of_single rfl i q
theorem rhs_row (i : S1536x2048.Idx) (q : dot_S1536x256_S2048x256_S1536x2048_1_1_0_0_n_n.contr.Idx) : (dot_S1536x256_S2048x256_S1536x2048_1_1_0_0_n_n.rhsIdx i q 0).val = (i 1).val := by
  unfold DotDims.rhsIdx
  rw [dif_neg (show ¬(0 : Fin S2048x256.rank) ∈ dot_S1536x256_S2048x256_S1536x2048_1_1_0_0_n_n.rhsBatch by decide),
    dif_pos (show (0 : Fin S2048x256.rank) ∈ dot_S1536x256_S2048x256_S1536x2048_1_1_0_0_n_n.rhsNonContracting by decide)]
  rfl
theorem rhs_col (i : S1536x2048.Idx) (q : dot_S1536x256_S2048x256_S1536x2048_1_1_0_0_n_n.contr.Idx) : (dot_S1536x256_S2048x256_S1536x2048_1_1_0_0_n_n.rhsIdx i q 1).val = (q ⟨0, by decide⟩).val :=
  dot_S1536x256_S2048x256_S1536x2048_1_1_0_0_n_n.rhsIdx_val_of_single rfl i q

/-- The product into a zero accumulator at `(r, c)`: the sum over the 256 columns of left row `r` times weight row `c`. -/
theorem product_apply {φ₁ φ₂ : FTy} (A : FVec Ideal S1536x256 φ₁) (B : FVec Ideal S2048x256 φ₂) (r : Fin 1536) (c : Fin 2048) :
    FloatOps.matmul dot_S1536x256_S2048x256_S1536x2048_1_1_0_0_n_n none A B (constant S1536x2048 .f32 0x00000000#32) (ix2 r c)
      = ∑ k : Fin 256, A (ix2 r k) * B (ix2 c k) := by
  rw [Ideal.matmul_constant_zero_apply, ← Equiv.sum_comp (contrEquiv1 dot_S1536x256_S2048x256_S1536x2048_1_1_0_0_n_n 256 rfl rfl).symm]
  refine Finset.sum_congr rfl fun k _ => ?_
  have hk := contrEquiv1_symm_val dot_S1536x256_S2048x256_S1536x2048_1_1_0_0_n_n 256 rfl rfl k
  have el : dot_S1536x256_S2048x256_S1536x2048_1_1_0_0_n_n.lhsIdx (ix2 r c) ((contrEquiv1 dot_S1536x256_S2048x256_S1536x2048_1_1_0_0_n_n 256 rfl rfl).symm k) = ix2 r k := funext fun a => Fin.ext (by
    match a with
    | ⟨0, _⟩ => exact lhs_row _ _
    | ⟨1, _⟩ => exact (lhs_col _ _).trans hk)
  have er : dot_S1536x256_S2048x256_S1536x2048_1_1_0_0_n_n.rhsIdx (ix2 r c) ((contrEquiv1 dot_S1536x256_S2048x256_S1536x2048_1_1_0_0_n_n 256 rfl rfl).symm k) = ix2 c k := funext fun a => Fin.ext (by
    match a with
    | ⟨0, _⟩ => exact rhs_row _ _
    | ⟨1, _⟩ => exact (rhs_col _ _).trans hk)
  rw [el, er]

end Product

/-! ## The weights and the tile -/

/-- The weight block the kernel rebuilds from the codes and the scales. -/
def weights (v5 : Vec Ideal S2048x2 .f32) (v6 : Vec Ideal S2048x256 .i32) : FVec Ideal S2048x256 .bf16 :=
  truncf .bf16
    (shapeCast S2048x256
      (mulf
        (subf (shapeCast S2048x2x128 (sitofp .f32 v6 : FVec Ideal S2048x256 .f32) shapeCasts_S2048x256_S2048x2x128)
          (broadcast S2048x2x128 (Scalar.ofBits (F := Ideal) .f32 0x41000000#32)))
        (broadcastTo S2048x2x128 (shapeCast S2048x2x1 v5 shapeCasts_S2048x2_S2048x2x1) broadcasts_S2048x2x1_S2048x2x128))
      shapeCasts_S2048x2x128_S2048x256)
    bitsLt_bf16_f32

/-- A weight is its code less the zero point, times the scale of the code's group of 128 columns. -/
theorem weights_apply (v5 : Vec Ideal S2048x2 .f32) (v6 : Vec Ideal S2048x256 .i32) (c : Fin 2048) (k : Fin 256) :
    weights v5 v6 (ix2 c k)
      = Cert.GroupedProduct.deq (v6 (ix2 c k)) (v5 (ix2 c ⟨k.val / 128, by have := k.isLt; omega⟩)) := by
  have hk : (⟨(⟨k.val / 128, by have := k.isLt; omega⟩ : Fin 2).val * 128
      + (⟨k.val % 128, Nat.mod_lt _ (by decide)⟩ : Fin 128).val, by have := k.isLt; omega⟩ : Fin 256) = k :=
    Fin.ext (by show k.val / 128 * 128 + k.val % 128 = k.val; omega)
  unfold weights
  rw [truncf_apply, merge_apply, mulf_apply, subf_apply, split_apply, lanes_apply, unit_apply, broadcast_apply, hk]
  rfl

/-- THE TILE at `(r, c)`: the accumulator there plus the 256 products of left row `r` with weight row `c`. -/
theorem tile_apply (v5 : Vec Ideal S2048x2 .f32) (v6 : Vec Ideal S2048x256 .i32) (v16 : Vec Ideal S1536x256 .f32)
    (v19 : Vec Ideal S1536x2048 .f32) (r : Fin 1536) (cc : Fin 2048) :
    k0_pay2 (F := Ideal) v5 v6 v16 v19 (ix2 r cc)
      = v19 (ix2 r cc) + ∑ kk : Fin 256, v16 (ix2 r kk)
          * Cert.GroupedProduct.deq (v6 (ix2 cc kk)) (v5 (ix2 cc ⟨kk.val / 128, by have := kk.isLt; omega⟩)) := by
  unfold k0_pay2
  rw [shapeCast_self]
  show v19 (ix2 r cc) + FloatOps.matmul dot_S1536x256_S2048x256_S1536x2048_1_1_0_0_n_n none
      (truncf .bf16 v16 bitsLt_bf16_f32 : FVec Ideal S1536x256 .bf16) (weights v5 v6)
      (constant S1536x2048 .f32 0x00000000#32) (ix2 r cc) = _
  rw [product_apply]
  refine congrArg (v19 (ix2 r cc) + ·) (Finset.sum_congr rfl fun kk _ => ?_)
  rw [weights_apply, truncf_apply]

/-- The value the first tile starts from is zero everywhere. -/
theorem zero_apply (j : S1536x2048.Idx) : k0_pay1 (F := Ideal) j = 0 := by
  unfold k0_pay1
  rw [shapeCast_self]
  show Ideal.ofBits .f32 0x00000000#32 = 0
  exact Ideal.ofBits_zero_f32

end Cert.KernelIdeal.TileValue

end
-- ==== Proof.TileStep.lean ====
/-
  One tile's accumulation step, as arithmetic on the running sums of the grouped product.

  At the grid point with block coordinates `(bi, bj)` and tile number `k` the kernel's buffers hold: rows
  `bi * 1536 + r` and columns `k * 256 + kk` of the left matrix; rows `bj * 2048 + c` and the same columns of the
  codes; rows `bj * 2048 + c` of the scales, of which the tile reads the two columns `2 * k`, `2 * k + 1`; and, in the
  scratch, the running sum over the first `k` tiles. The tile adds, at `(r, c)`, the 256 products
  `x[r, kk] * ((q[c, kk] - 8) * s[c, 2 * k + kk / 128])`: these are the terms of the product at columns `256 * k + kk`
  (as `(256 * k + kk) / 128 = 2 * k + kk / 128`), so the scratch then holds the running sum over the first `k + 1` tiles.
  Only the entries inside the matrices are claimed: a block that overhangs the matrix holds anything outside it.
-/
import proofs.«115205_j37082747634166_1_alg».proof.Proof.TileRun
import proofs.«115205_j37082747634166_1_alg».proof.Proof.TilePayload
import proofs.«115205_j37082747634166_1_alg».proof.Proof.LibGroupedProduct

noncomputable section

namespace Cert.KernelIdeal.TileStep

open Cert.KernelIdeal Cert.KernelIdeal.Gen Idealize.ShloMosaic Idealize.ShloMosaic.ValueIdx
open Cert.GroupedProduct

/-- The tile's slice of the scale block: column `g` of the slice is column `2 * k + g` of the block. -/
theorem scale_read (gc : grid0.Coords) (k : ℕ) (hk : k < 16) (hoff0 : k0_off1 gc 0 = 0) (hoff1 : k0_off1 gc 1 = 2 * k)
    (X2 : Vec Ideal S2048x32 .f32) (cc : Fin 2048) (g : Fin 2) :
    View.ld X2 (TileRun.scaleRect gc) (ix2 cc g) = X2 (ix2 cc ⟨2 * k + g.val, by have := g.isLt; omega⟩) := by
  show X2 ((TileRun.scaleRect gc).idx (ix2 cc g)) = _
  refine congrArg X2 (funext fun a => Fin.ext ?_)
  match a with
  | ⟨0, _⟩ => show k0_off1 gc 0 + 1 * cc.val = cc.val; rw [hoff0, Nat.one_mul, Nat.zero_add]
  | ⟨1, _⟩ => show k0_off1 gc 1 + 1 * g.val = 2 * k + g.val; rw [hoff1, Nat.one_mul]

/-- THE STEP: from the running sum over `k` tiles to the running sum over `k + 1`. -/
theorem step (x : SX.Idx → EReal) (q : SQ.Idx → BitVec 32) (s : SS.Idx → EReal) (bi bj k : ℕ) (hk : k < 16)
    (gc : grid0.Coords) (hoff0 : k0_off1 gc 0 = 0) (hoff1 : k0_off1 gc 1 = 2 * k)
    (X0 : Vec Ideal S1536x256 .f32) (X1 : Vec Ideal S2048x256 .i32) (X2 : Vec Ideal S2048x32 .f32) (Xs : Vec Ideal S1536x2048 .f32)
    (h0 : ∀ (r : Fin 1536) (kk : Fin 256) (hr : bi * 1536 + r.val < 4096),
      X0 (ix2 r kk) = x (ix2 ⟨bi * 1536 + r.val, hr⟩ ⟨k * 256 + kk.val, by have := kk.isLt; omega⟩))
    (h1 : ∀ (cc : Fin 2048) (kk : Fin 256) (hc : bj * 2048 + cc.val < 11008),
      X1 (ix2 cc kk) = q (ix2 ⟨bj * 2048 + cc.val, hc⟩ ⟨k * 256 + kk.val, by have := kk.isLt; omega⟩))
    (h2 : ∀ (cc : Fin 2048) (g : Fin 32) (hc : bj * 2048 + cc.val < 11008), X2 (ix2 cc g) = s (ix2 ⟨bj * 2048 + cc.val, hc⟩ g))
    (hs : ∀ (r : Fin 1536) (cc : Fin 2048), bi * 1536 + r.val < 4096 → bj * 2048 + cc.val < 11008 →
      Xs (ix2 r cc) = part x q s k (bi * 1536 + r.val) (bj * 2048 + cc.val)) :
    ∀ (r : Fin 1536) (cc : Fin 2048), bi * 1536 + r.val < 4096 → bj * 2048 + cc.val < 11008 →
      TileRun.tile (F := Ideal) gc X0 X1 X2 Xs (ix2 r cc) = part x q s (k + 1) (bi * 1536 + r.val) (bj * 2048 + cc.val) := by
  intro r cc hr hc
  unfold TileRun.tile
  rw [TileValue.tile_apply, hs r cc hr hc, part_succ,
    ← Fin.sum_univ_eq_sum_range (fun kk => term x q s (bi * 1536 + r.val) (bj * 2048 + cc.val) (256 * k + kk)) 256]
  refine congrArg (part x q s k (bi * 1536 + r.val) (bj * 2048 + cc.val) + ·) (Finset.sum_congr rfl fun kk _ => ?_)
  have hkk : kk.val < 256 := kk.isLt
  have hK : 256 * k + kk.val < 4096 := by omega
  have ht : term x q s (bi * 1536 + r.val) (bj * 2048 + cc.val) (256 * k + kk.val)
      = x (ix2 ⟨bi * 1536 + r.val, hr⟩ ⟨256 * k + kk.val, hK⟩)
        * deq (q (ix2 ⟨bj * 2048 + cc.val, hc⟩ ⟨256 * k + kk.val, hK⟩))
            (s (ix2 ⟨bj * 2048 + cc.val, hc⟩ ⟨(256 * k + kk.val) / 128, by omega⟩)) :=
    term_of_lt x q s ⟨bi * 1536 + r.val, hr⟩ ⟨bj * 2048 + cc.val, hc⟩ ⟨256 * k + kk.val, hK⟩
  have e1 : (⟨k * 256 + kk.val, by omega⟩ : Fin 4096) = ⟨256 * k + kk.val, hK⟩ := Fin.ext (by show k * 256 + kk.val = 256 * k + kk.val; omega)
  have e2 : (⟨2 * k + (⟨kk.val / 128, by omega⟩ : Fin 2).val, by show 2 * k + kk.val / 128 < 32; omega⟩ : Fin 32)
      = ⟨(256 * k + kk.val) / 128, by omega⟩ := Fin.ext (by show 2 * k + kk.val / 128 = (256 * k + kk.val) / 128; omega)
  rw [ht, h0 r kk hr, h1 cc kk hc, scale_read gc k hk hoff0 hoff1, h2 cc _ hc, e1, e2]

/-- The first tile, with the tile number a variable known to be zero: the scratch was zeroed, and the running sum over no
    tiles is zero. -/
theorem step_first_of_eq (x : SX.Idx → EReal) (q : SQ.Idx → BitVec 32) (s : SS.Idx → EReal) (bi bj k : ℕ) (hk0 : k = 0)
    (gc : grid0.Coords) (hoff0 : k0_off1 gc 0 = 0) (hoff1 : k0_off1 gc 1 = 2 * k)
    (X0 : Vec Ideal S1536x256 .f32) (X1 : Vec Ideal S2048x256 .i32) (X2 : Vec Ideal S2048x32 .f32)
    (h0 : ∀ (r : Fin 1536) (kk : Fin 256) (hr : bi * 1536 + r.val < 4096),
      X0 (ix2 r kk) = x (ix2 ⟨bi * 1536 + r.val, hr⟩ ⟨k * 256 + kk.val, by have := kk.isLt; omega⟩))
    (h1 : ∀ (cc : Fin 2048) (kk : Fin 256) (hc : bj * 2048 + cc.val < 11008),
      X1 (ix2 cc kk) = q (ix2 ⟨bj * 2048 + cc.val, hc⟩ ⟨k * 256 + kk.val, by have := kk.isLt; omega⟩))
    (h2 : ∀ (cc : Fin 2048) (g : Fin 32) (hc : bj * 2048 + cc.val < 11008), X2 (ix2 cc g) = s (ix2 ⟨bj * 2048 + cc.val, hc⟩ g)) :
    ∀ (r : Fin 1536) (cc : Fin 2048), bi * 1536 + r.val < 4096 → bj * 2048 + cc.val < 11008 →
      TileRun.tile (F := Ideal) gc X0 X1 X2 (k0_pay1 (F := Ideal)) (ix2 r cc)
        = part x q s 1 (bi * 1536 + r.val) (bj * 2048 + cc.val) := by
  subst hk0
  exact step x q s bi bj 0 (by decide) gc hoff0 hoff1 X0 X1 X2 _ h0 h1 h2
    (fun r cc _ _ => (TileValue.zero_apply _).trans (part_zero x q s _ _).symm)

/-- The first tile, with the columns written plainly: tile 0 reads columns `kk` of the matrices and columns 0, 1 of the
    scales. -/
theorem step_first (x : SX.Idx → EReal) (q : SQ.Idx → BitVec 32) (s : SS.Idx → EReal) (bi bj : ℕ)
    (gc : grid0.Coords) (hoff0 : k0_off1 gc 0 = 0) (hoff1 : k0_off1 gc 1 = 0)
    (X0 : Vec Ideal S1536x256 .f32) (X1 : Vec Ideal S2048x256 .i32) (X2 : Vec Ideal S2048x32 .f32)
    (h0 : ∀ (r : Fin 1536) (kk : Fin 256) (hr : bi * 1536 + r.val < 4096),
      X0 (ix2 r kk) = x (ix2 ⟨bi * 1536 + r.val, hr⟩ ⟨kk.val, by have := kk.isLt; omega⟩))
    (h1 : ∀ (cc : Fin 2048) (kk : Fin 256) (hc : bj * 2048 + cc.val < 11008),
      X1 (ix2 cc kk) = q (ix2 ⟨bj * 2048 + cc.val, hc⟩ ⟨kk.val, by have := kk.isLt; omega⟩))
    (h2 : ∀ (cc : Fin 2048) (g : Fin 32) (hc : bj * 2048 + cc.val < 11008), X2 (ix2 cc g) = s (ix2 ⟨bj * 2048 + cc.val, hc⟩ g)) :
    ∀ (r : Fin 1536) (cc : Fin 2048), bi * 1536 + r.val < 4096 → bj * 2048 + cc.val < 11008 →
      TileRun.tile (F := Ideal) gc X0 X1 X2 (k0_pay1 (F := Ideal)) (ix2 r cc)
        = part x q s 1 (bi * 1536 + r.val) (bj * 2048 + cc.val) :=
  step_first_of_eq x q s bi bj 0 rfl gc hoff0 hoff1 X0 X1 X2
    (fun r kk hr => (h0 r kk hr).trans (congrArg (fun t => x (ix2 ⟨bi * 1536 + r.val, hr⟩ t))
      (Fin.ext (by show kk.val = 0 * 256 + kk.val; omega))))
    (fun cc kk hc => (h1 cc kk hc).trans (congrArg (fun t => q (ix2 ⟨bj * 2048 + cc.val, hc⟩ t))
      (Fin.ext (by show kk.val = 0 * 256 + kk.val; omega))))
    h2

end Cert.KernelIdeal.TileStep

end
-- ==== Proof.Accumulate.lean ====
/-
  The running sum, point by point, at the ideal instance.

  Write `(bi, bj, k) = (t / 96, t / 16 % 6, t % 16)` for point `t`. After the body at `t` the scratch block holds, at
  every entry `(r, cc)` that stands for an entry of the product (row `bi * 1536 + r` below 4096, column
  `bj * 2048 + cc` below 11008), the sum of the first `k + 1` column tiles of that entry of the product
  (`Summed`): the first tile starts from zero, each later tile adds its 256 terms to what the tile before left
  (the point before, which has the same output block), the input buffers holding the arrays' blocks at every
  entry that matters. Outside those entries — where an edge block overhangs its array — the buffers hold words
  nothing names and nothing is claimed. At the last tile the body copies the scratch into the output buffer,
  which is then written back: on the part of the block inside the array that is the product itself.

  This is packaged as the pipeline's proof data (`dats`), with the running sum as the invariant carried from
  point to point (`Inv`: some contents of the scratch that are `Summed`), and the body's obligation at every
  point (`body_obligation`) from the three runs of the body.
-/
import proofs.«115205_j37082747634166_1_alg».proof.Proof.Blocks
import proofs.«115205_j37082747634166_1_alg».proof.Proof.TileStep
import Idealize.ShloMosaic.Lib.Pipeline.FrameBody
import Idealize.ShloMosaic.Lib.Pipeline.Value
import Idealize.ShloMosaic.Lib.Tactic

set_option maxRecDepth 16384

noncomputable section

namespace Cert.KernelIdeal.Accumulate

open Cert.KernelIdeal Cert.KernelIdeal.Gen Cert.KernelIdeal.TileRun Cert.KernelIdeal.Schedule Cert.KernelIdeal.Blocks
open Cert.GroupedProduct (part product)
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The three argument arrays on core `c`. -/
abbrev argX (c : Dev nD) : S4096x4096.Idx → EReal := m ((c : Thread nD τ).loc main_arg0)
abbrev argQ (c : Dev nD) : S11008x4096.Idx → BitVec 32 := m ((c : Thread nD τ).loc main_arg1)
abbrev argS (c : Dev nD) : S11008x32.Idx → EReal := m ((c : Thread nD τ).loc main_arg2)

/-- The product of the arguments, as contents of the result array. -/
def target (c : Dev nD) : Buf (Elt Ideal) ((c : Thread nD τ).loc main_v0) :=
  product (argX m c) (argQ m c) (argS m c)

/-- The scratch block. -/
abbrev scM : Memref sig .tc .vmem S1536x2048 .f32 := Memref.whole cc0_scratch0

/-- After point `n`: every entry of the scratch that stands for an entry of the product holds the sum of that
    entry's first `n % 16 + 1` column tiles. -/
def Summed (c : Dev nD) (n : ℕ) (Xs : Vec Ideal S1536x2048 .f32) : Prop :=
  ∀ (r : Fin 1536) (cc : Fin 2048), n / 96 * 1536 + r.val < 4096 → n / 16 % 6 * 2048 + cc.val < 11008 →
    Xs (ix2 r cc) = part (argX m c) (argQ m c) (argS m c) (n % 16 + 1) (n / 96 * 1536 + r.val) (n / 16 % 6 * 2048 + cc.val)

/-- The invariant before position `n`: at the start the scratch holds anything; after point `n` it is `Summed`. -/
def Inv (c : Dev nD) : ℕ → sProp 𝕄
  | 0 => Pipeline.ΦA spec0 c
  | n + 1 => iprop((∃ Xs, ⌜Summed m c n Xs⌝ ∗ owns (c : Thread nD τ) scM fullShare Xs) ∗ (∃ r, prngReg c r))

theorem Inv_zero (c : Dev nD) : Inv m c 0 = Pipeline.ΦA spec0 c := rfl
theorem Inv_succ (c : Dev nD) (n : ℕ) :
    Inv m c (n + 1) = iprop((∃ Xs, ⌜Summed m c n Xs⌝ ∗ owns (c : Thread nD τ) scM fullShare Xs) ∗ (∃ r, prngReg c r)) := rfl
theorem Inv_pos (c : Dev nD) (n : ℕ) (hn : n ≠ 0) :
    Inv m c n = iprop((∃ Xs, ⌜Summed m c (n - 1) Xs⌝ ∗ owns (c : Thread nD τ) scM fullShare Xs) ∗ (∃ r, prngReg c r)) := by
  cases n with
  | zero => exact absurd rfl hn
  | succ n => rfl

/-- What the region is entered with: the scratch owned at some contents, the generator register at some state. -/
theorem PhiA_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-! ## The proof data -/

/-- The arrays as launched; after the body each input buffer at its block (zero past the array's end, where nothing
    is claimed), the output buffer at the product's block; the invariant `Inv`; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => win0_1.fill (grid0.coords t) (fun _ => (0#32 : BitVec 32)) (iblk m c 1 t)
    | ⟨2, _⟩ => win0_2.fill (grid0.coords t) (fun _ => (0 : EReal)) (iblk m c 2 t)
    | ⟨3, _⟩ => win0_3.fill (grid0.coords t) (fun _ => (0 : EReal)) ((win0_3.blk t).view.read (Elt Ideal) (target m c))
  Φ t := Inv m c t.val
  q _ := fullShare
  owed _ := 0

theorem A_eq (c : Dev nD) (w : Fin cfg0.W) : (dats m 0 c).A w = V m c (Pipeline.arrRef spec0 w) := by dsimp only [dats]

theorem after0 (c : Dev nD) (t : Fin cfg0.N) :
    (dats m 0 c).after 0 t = win0_0.fill (grid0.coords t) (fun _ => (0 : EReal)) (iblk m c 0 t) := by dsimp only [dats]
theorem after1 (c : Dev nD) (t : Fin cfg0.N) :
    (dats m 0 c).after 1 t = win0_1.fill (grid0.coords t) (fun _ => (0#32 : BitVec 32)) (iblk m c 1 t) := by dsimp only [dats]
theorem after2 (c : Dev nD) (t : Fin cfg0.N) :
    (dats m 0 c).after 2 t = win0_2.fill (grid0.coords t) (fun _ => (0 : EReal)) (iblk m c 2 t) := by dsimp only [dats]
theorem after3 (c : Dev nD) (t : Fin cfg0.N) :
    (dats m 0 c).after 3 t = win0_3.fill (grid0.coords t) (fun _ => (0 : EReal)) ((win0_3.blk t).view.read (Elt Ideal) (target m c)) := by
  dsimp only [dats]

theorem blockOf_eq (c : Dev nD) (w : Fin cfg0.W) (t : Fin cfg0.N) : (dats m 0 c).blockOf w t = iblk m c w t := by
  unfold Dat.blockOf iblk; rw [A_eq]

/-- Each input buffer holds its block when the body runs, fetched at that point or not, over whatever it held. -/
theorem before0 (c : Dev nD) (t : Fin cfg0.N) (d) :
    (dats m 0 c).before 0 t d = win0_0.fill (grid0.coords t) d (iblk m c 0 t) := by
  rw [(dats m 0 c).before_in_eq_fetched 0 rfl (fun _ => rfl)
    (fun t t' h => funext fun a => by
      show Pipeline.Clip.of (win0_0.index t a) _ _ = Pipeline.Clip.of (win0_0.index t' a) _ _; rw [h])
    (fun t => by rw [after0, blockOf_eq]; exact win0_0.cut_fill _ _ _) t d]
  unfold Dat.fetched; rw [blockOf_eq]
theorem before1 (c : Dev nD) (t : Fin cfg0.N) (d) :
    (dats m 0 c).before 1 t d = win0_1.fill (grid0.coords t) d (iblk m c 1 t) := by
  rw [(dats m 0 c).before_in_eq_fetched 1 rfl (fun _ => rfl)
    (fun t t' h => funext fun a => by
      show Pipeline.Clip.of (win0_1.index t a) _ _ = Pipeline.Clip.of (win0_1.index t' a) _ _; rw [h])
    (fun t => by rw [after1, blockOf_eq]; exact win0_1.cut_fill _ _ _) t d]
  unfold Dat.fetched; rw [blockOf_eq]
theorem before2 (c : Dev nD) (t : Fin cfg0.N) (d) :
    (dats m 0 c).before 2 t d = win0_2.fill (grid0.coords t) d (iblk m c 2 t) := by
  rw [(dats m 0 c).before_in_eq_fetched 2 rfl (fun _ => rfl)
    (fun t t' h => funext fun a => by
      show Pipeline.Clip.of (win0_2.index t a) _ _ = Pipeline.Clip.of (win0_2.index t' a) _ _; rw [h])
    (fun t => by rw [after2, blockOf_eq]; exact win0_2.cut_fill _ _ _) t d]
  unfold Dat.fetched; rw [blockOf_eq]

/-! ## The running sum -/

/-- The first tile of an output block leaves the first tile's sum. -/
theorem summed_first (c : Dev nD) (t : Fin cfg0.N) (h0 : t.val % 16 = 0) (d0 d1 d2) :
    Summed m c t.val (tile (F := Ideal) (grid0.coords t) (win0_0.fill (grid0.coords t) d0 (iblk m c 0 t))
      (win0_1.fill (grid0.coords t) d1 (iblk m c 1 t)) (win0_2.fill (grid0.coords t) d2 (iblk m c 2 t)) (k0_pay1 (F := Ideal))) := by
  intro r cc hr hc
  rw [h0]
  exact TileStep.step_first_of_eq (argX m c) (argQ m c) (argS m c) (t.val / 96) (t.val / 16 % 6) (t.val % 16) h0
    (grid0.coords t) (scale_off t).1 (scale_off t).2 _ _ _
    (fun r kk hr => xheld m c t d0 r kk hr) (fun cc kk hc => qheld m c t d1 cc kk hc) (fun cc g hc => sheld m c t d2 cc g hc) r cc hr hc

/-- A later tile adds its terms to what the point before left. -/
theorem summed_next (c : Dev nD) (t : Fin cfg0.N) (h0 : ¬ t.val % 16 = 0) (Xs : Vec Ideal S1536x2048 .f32)
    (hXs : Summed m c (t.val - 1) Xs) (d0 d1 d2) :
    Summed m c t.val (tile (F := Ideal) (grid0.coords t) (win0_0.fill (grid0.coords t) d0 (iblk m c 0 t))
      (win0_1.fill (grid0.coords t) d1 (iblk m c 1 t)) (win0_2.fill (grid0.coords t) d2 (iblk m c 2 t)) Xs) := by
  have hN : t.val < 288 := lt_of_lt_of_eq t.isLt N_eq
  have e1 : (t.val - 1) / 96 = t.val / 96 := by omega
  have e2 : (t.val - 1) / 16 % 6 = t.val / 16 % 6 := by omega
  have e3 : (t.val - 1) % 16 + 1 = t.val % 16 := by omega
  intro r cc hr hc
  refine TileStep.step (argX m c) (argQ m c) (argS m c) (t.val / 96) (t.val / 16 % 6) (t.val % 16) (Nat.mod_lt _ (by decide))
    (grid0.coords t) (scale_off t).1 (scale_off t).2 _ _ _ Xs
    (fun r kk hr => xheld m c t d0 r kk hr) (fun cc kk hc => qheld m c t d1 cc kk hc) (fun cc g hc => sheld m c t d2 cc g hc)
    (fun r cc hr hc => ?_) r cc hr hc
  have := hXs r cc (by rw [e1]; exact hr) (by rw [e2]; exact hc)
  rw [e1, e2, e3] at this
  exact this

/-- After the last tile the scratch, on the block's part inside the array, is the product's block. -/
theorem written_eq (c : Dev nD) (t : Fin cfg0.N) (h15 : t.val % 16 = 15) (X : Vec Ideal S1536x2048 .f32) (hX : Summed m c t.val X) :
    win0_3.cut (grid0.coords t) X = (win0_3.blk t).view.read (Elt Ideal) (target m c) := by
  funext y
  have hy0 : t.val / 96 * 1536 + (y 0).val < 4096 := by
    have := win0_3.inside_of_lt_xsize (grid0.coords t) 0 (y 0).isLt
    have e : win0_3.indexMap (grid0.coords t) 0 = t.val / 96 := (index3 t).1
    rw [e] at this; exact this
  have hy1 : t.val / 16 % 6 * 2048 + (y 1).val < 11008 := by
    have := win0_3.inside_of_lt_xsize (grid0.coords t) 1 (y 1).isLt
    have e : win0_3.indexMap (grid0.coords t) 1 = t.val / 16 % 6 := (index3 t).2
    rw [e] at this; exact this
  have hr : (y 0).val < 1536 := Nat.lt_of_lt_of_le (y 0).isLt (win0_3.xsize_le _ 0)
  have hc : (y 1).val < 2048 := Nat.lt_of_lt_of_le (y 1).isLt (win0_3.xsize_le _ 1)
  rw [yblock_apply (F := Ideal) c (target m c) t y (ix2 ⟨t.val / 96 * 1536 + (y 0).val, hy0⟩ ⟨t.val / 16 % 6 * 2048 + (y 1).val, hy1⟩) rfl rfl]
  have hx : win0_3.xinj (grid0.coords t) y = ix2 (⟨(y 0).val, hr⟩ : Fin 1536) (⟨(y 1).val, hc⟩ : Fin 2048) := by
    rw [eq_ix2 (win0_3.xinj (grid0.coords t) y)]; rfl
  show X (win0_3.xinj (grid0.coords t) y) = _
  rw [hx, hX ⟨(y 0).val, hr⟩ ⟨(y 1).val, hc⟩ hy0 hy1, h15]
  rfl

end Cert.KernelIdeal.Accumulate

end
-- ==== Proof.Obligation.lean ====
/-
  The body's obligation at a generic point. The pipeline hands the body its invariant, the four current buffers —
  each input at its block over anything, the output at anything the last write-back or the body left — and asks
  them back: the invariant at the next position, the inputs as they were, the output untouched at a point that
  does not write it back, and at a last tile holding the product's block on the part inside the array. By cases
  on the tile number: the first tile (from whatever the scratch held, at the very first point what the launch
  left there), a middle tile, the last tile; each is that case's run of the body, with the running sum carried by
  the invariant (`summed_first`, `summed_next`) and, at the last tile, read off it (`written_eq`).
-/
import proofs.«115205_j37082747634166_1_alg».proof.Proof.Accumulate

set_option maxRecDepth 16384

noncomputable section

namespace Cert.KernelIdeal.Accumulate

open Cert.KernelIdeal Cert.KernelIdeal.Gen Cert.KernelIdeal.TileRun Cert.KernelIdeal.Schedule Cert.KernelIdeal.Blocks
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- What the scratch holds after the body at point `t`, from what it held (`xs`) and what filled the input
    buffers past the arrays' ends (`d0 d1 d2`). -/
def newAcc (c : Dev nD) (t : Fin cfg0.N) (d0 : S1536x256.Idx → EReal) (d1 : S2048x256.Idx → BitVec 32) (d2 : S2048x32.Idx → EReal)
    (xs : Vec Ideal S1536x2048 .f32) : Vec Ideal S1536x2048 .f32 :=
  tile (F := Ideal) (grid0.coords t) (win0_0.fill (grid0.coords t) d0 (iblk m c 0 t))
    (win0_1.fill (grid0.coords t) d1 (iblk m c 1 t)) (win0_2.fill (grid0.coords t) d2 (iblk m c 2 t)) xs

/-! ## What the obligation asks back of each buffer -/

theorem leaves0 (c : Dev nD) (t : Fin cfg0.N) : (dats m 0 c).leaves 0 t
    = iprop(∃ d, owns (c : Thread nD τ) (st0_0 t) fullShare (win0_0.fill (grid0.coords t) d (iblk m c 0 t))) := by
  show iprop(∃ d, owns (c : Thread nD τ) (st0_0 t) fullShare (win0_0.fill (grid0.coords t) d (win0_0.cut (grid0.coords t) ((dats m 0 c).after 0 t)))) = _
  rw [after0, Window.cut_fill]
theorem leaves1 (c : Dev nD) (t : Fin cfg0.N) : (dats m 0 c).leaves 1 t
    = iprop(∃ d, owns (c : Thread nD τ) (st0_1 t) fullShare (win0_1.fill (grid0.coords t) d (iblk m c 1 t))) := by
  show iprop(∃ d, owns (c : Thread nD τ) (st0_1 t) fullShare (win0_1.fill (grid0.coords t) d (win0_1.cut (grid0.coords t) ((dats m 0 c).after 1 t)))) = _
  rw [after1, Window.cut_fill]
theorem leaves2 (c : Dev nD) (t : Fin cfg0.N) : (dats m 0 c).leaves 2 t
    = iprop(∃ d, owns (c : Thread nD τ) (st0_2 t) fullShare (win0_2.fill (grid0.coords t) d (iblk m c 2 t))) := by
  show iprop(∃ d, owns (c : Thread nD τ) (st0_2 t) fullShare (win0_2.fill (grid0.coords t) d (win0_2.cut (grid0.coords t) ((dats m 0 c).after 2 t)))) = _
  rw [after2, Window.cut_fill]

/-- Before the last tile the output buffer is handed back as found. -/
theorem leaves3_idle (c : Dev nD) (t : Fin cfg0.N) (h : ¬ t.val % 16 = 15) : (dats m 0 c).leaves 3 t
    = iprop(∃ d, owns (c : Thread nD τ) (st0_3 t) fullShare ((dats m 0 c).before 3 t d)) :=
  Dat.leaves_idle (dats m 0 c) 3 t ((idle3_iff t).mpr h) (Bool.eq_false_iff.mpr fun hf => h ((flush0_3 t).mp hf))

/-- At the last tile it is asked back holding the product's block on the part inside the array. -/
theorem leaves3_last (c : Dev nD) (t : Fin cfg0.N) (h : t.val % 16 = 15) : (dats m 0 c).leaves 3 t
    = iprop(∃ d, owns (c : Thread nD τ) (st0_3 t) fullShare (win0_3.fill (grid0.coords t) d ((win0_3.blk t).view.read (Elt Ideal) (target m c)))) := by
  have hi : cfg0.idle 3 (grid0.coords t) = false := by
    cases hh : cfg0.idle 3 (grid0.coords t)
    · rfl
    · exact absurd h ((idle3_iff t).mp hh)
  unfold Dat.leaves
  rw [hi]
  show iprop(∃ d, owns (c : Thread nD τ) (st0_3 t) fullShare (win0_3.fill (grid0.coords t) d (win0_3.cut (grid0.coords t) ((dats m 0 c).after 3 t)))) = _
  rw [after3, Window.cut_fill]

/-! ## The obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t)

set_option maxHeartbeats 4000000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = Inv m c (t.val + 1) from rfl, Inv_succ]
  rw [show (dats m 0 c).Φ t.castSucc = Inv m c t.val from rfl]
  rw [leaves0 m c t, leaves1 m c t, leaves2 m c t]
  have hN : t.val < 288 := lt_of_lt_of_eq t.isLt N_eq
  by_cases h0 : t.val % 16 = 0
  · have hc0 : condFirst (grid0.coords t) := (first_iff t).mpr h0
    have hc1 : ¬condLast (grid0.coords t) := fun h => by have := (last_iff t).mp h; omega
    rw [leaves3_idle m c t (by omega)]
    by_cases hz : t.val = 0
    · rw [show Inv m c t.val = Pipeline.ΦA spec0 c from by rw [hz]; rfl, PhiA_eq]
      iintro ⟨⟨⟨%xs, HS⟩, Hg⟩, Ho, ⟨%d0, H0⟩, ⟨%d1, H1⟩, ⟨%d2, H2⟩, ⟨%d3, H3⟩⟩
      iapply (run_first c (grid0.coords t) _ _ _ _ _ _ _ _ _ _ hc0 hc1 _ _ _ _ xs Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]
        · iexists (newAcc m c t d0 d1 d2 (k0_pay1 (F := Ideal))); isplitr
          · ipureintro; exact summed_first m c t h0 d0 d1 d2
          iexact HS
        iexact Hg
      isplitl [Ho]; · iexact Ho
      isplitl [H0]; · iexists d0; iexact H0
      isplitl [H1]; · iexists d1; iexact H1
      isplitl [H2]; · iexists d2; iexact H2
      iexists d3; iexact H3
    · rw [Inv_pos m c t.val hz]
      iintro ⟨⟨⟨%xs, %hxs, HS⟩, Hg⟩, Ho, ⟨%d0, H0⟩, ⟨%d1, H1⟩, ⟨%d2, H2⟩, ⟨%d3, H3⟩⟩
      iapply (run_first c (grid0.coords t) _ _ _ _ _ _ _ _ _ _ hc0 hc1 _ _ _ _ xs Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]
        · iexists (newAcc m c t d0 d1 d2 (k0_pay1 (F := Ideal))); isplitr
          · ipureintro; exact summed_first m c t h0 d0 d1 d2
          iexact HS
        iexact Hg
      isplitl [Ho]; · iexact Ho
      isplitl [H0]; · iexists d0; iexact H0
      isplitl [H1]; · iexists d1; iexact H1
      isplitl [H2]; · iexists d2; iexact H2
      iexists d3; iexact H3
  · have hz : t.val ≠ 0 := fun h => h0 (by rw [h])
    have hc0 : ¬condFirst (grid0.coords t) := fun h => h0 ((first_iff t).mp h)
    rw [Inv_pos m c t.val hz]
    by_cases h15 : t.val % 16 = 15
    · have hc1 : condLast (grid0.coords t) := (last_iff t).mpr h15
      rw [leaves3_last m c t h15]
      iintro ⟨⟨⟨%xs, %hxs, HS⟩, Hg⟩, Ho, ⟨%d0, H0⟩, ⟨%d1, H1⟩, ⟨%d2, H2⟩, ⟨%d3, H3⟩⟩
      have hT := summed_next m c t h0 xs hxs d0 d1 d2
      have hw : win0_3.fill (grid0.coords t) (newAcc m c t d0 d1 d2 xs) ((win0_3.blk t).view.read (Elt Ideal) (target m c))
          = newAcc m c t d0 d1 d2 xs := by
        rw [← written_eq m c t h15 (newAcc m c t d0 d1 d2 xs) hT]; exact win0_3.fill_cut _ _
      iapply (run_last c (grid0.coords t) _ _ _ _ _ _ _ _ _ _ hc0 hc1 _ _ _ _ xs Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]
        · iexists (newAcc m c t d0 d1 d2 xs); isplitr
          · ipureintro; exact hT
          iexact HS
        iexact Hg
      isplitl [Ho]; · iexact Ho
      isplitl [H0]; · iexists d0; iexact H0
      isplitl [H1]; · iexists d1; iexact H1
      isplitl [H2]; · iexists d2; iexact H2
      iexists (newAcc m c t d0 d1 d2 xs)
      rw [hw]; iexact H3
    · have hc1 : ¬condLast (grid0.coords t) := fun h => h15 ((last_iff t).mp h)
      rw [leaves3_idle m c t h15]
      iintro ⟨⟨⟨%xs, %hxs, HS⟩, Hg⟩, Ho, ⟨%d0, H0⟩, ⟨%d1, H1⟩, ⟨%d2, H2⟩, ⟨%d3, H3⟩⟩
      iapply (run_mid c (grid0.coords t) _ _ _ _ _ _ _ _ _ _ hc0 hc1 _ _ _ _ xs Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]
        · iexists (newAcc m c t d0 d1 d2 xs); isplitr
          · ipureintro; exact summed_next m c t h0 xs hxs d0 d1 d2
          iexact HS
        iexact Hg
      isplitl [Ho]; · iexact Ho
      isplitl [H0]; · iexists d0; iexact H0
      isplitl [H1]; · iexists d1; iexact H1
      isplitl [H2]; · iexists d2; iexact H2
      iexists d3; iexact H3

/-- The library's body obligation, at every point. -/
theorem body_obligation (c : Dev nD) : BodyObligationLoose (dats m 0 c) (defs₀ (F := Ideal)) Variants.none () Set.univ := fun t => by
  rw [bigSep_W0, bigSep_W0]
  exact sound_body m c t

end Cert.KernelIdeal.Accumulate

end
-- ==== Proof.OutputCover.lean ====
/-
  The written-back blocks of the product cover the product array.

  The product array is [4096, 11008]; the output window's blocks are [1536, 2048], block `(I, J)` starting at
  `(I * 1536, J * 2048)` and cut at the array's end (the last row block has 1024 rows, the last column block 768
  columns). Point `t` of the grid names block `(t / 96, t / 16 % 6)` and writes it back when `t % 16 = 15`. So
  the entry `(a, b)` of the array lies in the block written back at point `(a / 1536) * 96 + (b / 2048) * 16 + 15`:
  that point's block index is `(a / 1536, b / 2048)`, and `a - (a / 1536) * 1536` is a row of the block that stands
  for a row of the array, hence one of the rows the cut block keeps; likewise for the columns.
-/
import proofs.«115205_j37082747634166_1_alg».proof.Proof.Schedule
import proofs.«115205_j37082747634166_1_alg».proof.Proof.LibClippedBlocks

noncomputable section

namespace Cert.KernelIdeal.OutputCover

open Cert.KernelIdeal Cert.KernelIdeal.Gen
open Idealize.ShloMosaic Idealize.ShloMosaic.TcCoe Idealize.ShloMosaic.Pipeline

/-- The point that writes back the block holding entry `(a, b)` is a point of the grid. -/
theorem point_lt {a b : ℕ} (ha : a < 4096) (hb : b < 11008) : a / 1536 * 96 + b / 2048 * 16 + 15 < cfg0.N := by
  rw [Schedule.N_eq]; omega

/-- Every entry of the product array is in the block of a point that writes its block back. -/
theorem cover_idx (i : S4096x11008.Idx) :
    ∃ t : Fin cfg0.N, (cfg0.win 3).flush t = true ∧ i ∈ ((View.whole main_v0).slice (win0_3.rect t)).set := by
  have h0 : (i 0 : Nat) < 4096 := (i 0).isLt
  have h1 : (i 1 : Nat) < 11008 := (i 1).isLt
  obtain ⟨t, ht⟩ : ∃ t : Fin cfg0.N, t.val = (i 0).val / 1536 * 96 + (i 1).val / 2048 * 16 + 15 :=
    ⟨⟨_, point_lt h0 h1⟩, rfl⟩
  have e0 : win0_3.index t 0 = t.val / 96 := (Schedule.index3 t).1
  have e1 : win0_3.index t 1 = t.val / 16 % 6 := (Schedule.index3 t).2
  refine ⟨t, (flush0_3 t).mpr (by omega), ?_⟩
  rw [View.set_slice_whole, Rect.mem_set_unit]
  intro a
  match a with
  | ⟨0, _⟩ =>
    show win0_3.index t 0 * 1536 ≤ (i 0 : Nat)
      ∧ (i 0 : Nat) < win0_3.index t 0 * 1536 + win0_3.xsize (grid0.coords t) 0
    have hx : (i 0).val - win0_3.index t 0 * 1536 < win0_3.xsize (grid0.coords t) 0 :=
      win0_3.lt_xsize_of_inside (grid0.coords t) 0
        (by show (i 0).val - win0_3.index t 0 * 1536 < 1536; rw [e0]; omega)
        (by show win0_3.index t 0 * 1536 + ((i 0).val - win0_3.index t 0 * 1536) < 4096; rw [e0]; omega)
    rw [e0] at hx ⊢
    omega
  | ⟨1, _⟩ =>
    show win0_3.index t 1 * 2048 ≤ (i 1 : Nat)
      ∧ (i 1 : Nat) < win0_3.index t 1 * 2048 + win0_3.xsize (grid0.coords t) 1
    have hx : (i 1).val - win0_3.index t 1 * 2048 < win0_3.xsize (grid0.coords t) 1 :=
      win0_3.lt_xsize_of_inside (grid0.coords t) 1
        (by show (i 1).val - win0_3.index t 1 * 2048 < 2048; rw [e1]; omega)
        (by show win0_3.index t 1 * 2048 + ((i 1).val - win0_3.index t 1 * 2048) < 11008; rw [e1]; omega)
    rw [e1] at hx ⊢
    omega

/-- THE COVER, as the whole-array reading of the output window asks for it. -/
theorem cover (c : Dev nD) (i : ((cfg0.win 3).arr.view.loc (c.tc : Thread nD τ)).2.ty.Idx) :
    ∃ t : Fin cfg0.N, (cfg0.win 3).flush t = true ∧ i ∈ ((cfg0.win 3).blk t).view.set :=
  cover_idx i

end Cert.KernelIdeal.OutputCover

end
-- ==== Proof.Final.lean ====
/-
  The launch and the final array, at the ideal instance.

  The invariant carried from point to point is handed in as the region finds the scratch (any contents) and, after
  the last point, given back with the running sum forgotten. The blocks written back at the last tiles cover the
  product array, and each of them is the product's block there (the output buffer was filled with it, and its part
  inside the array is what the write-back writes), so the result array ends holding the product; the three
  argument arrays, which no point writes, end as they were launched.
-/
import proofs.«115205_j37082747634166_1_alg».proof.Proof.Accumulate
import proofs.«115205_j37082747634166_1_alg».proof.Proof.Obligation
import proofs.«115205_j37082747634166_1_alg».proof.Proof.OutputCover
import Idealize.ShloMosaic.Lib.Pipeline.Frame
import Idealize.ShloMosaic.Lib.Pipeline.Value

set_option maxRecDepth 16384

noncomputable section

namespace Cert.KernelIdeal.Final

open Cert.KernelIdeal Cert.KernelIdeal.Gen Cert.KernelIdeal.TileRun Cert.KernelIdeal.Schedule Cert.KernelIdeal.Blocks
open Cert.KernelIdeal.Accumulate
open Cert.GroupedProduct (part product)
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- Before the first point the invariant is what the region is entered with. -/
theorem hin (c : Dev nD) : Pipeline.ΦA spec0 c ⊢ (dats m 0 c).Φ 0 := by
  show Pipeline.ΦA spec0 c ⊢ Inv m c 0
  rw [Inv_zero]

/-- After the last point the invariant gives it back: the scratch is still owned, its running sum forgotten. -/
theorem hout (c : Dev nD) : (dats m 0 c).Φ (Fin.last cfg0.N) ⊢ Pipeline.ΦA spec0 c := by
  rw [show (dats m 0 c).Φ (Fin.last cfg0.N) = Inv m c (Fin.last cfg0.N).val from rfl,
    Inv_pos m c _ (by rw [Fin.val_last, N_eq]; decide), PhiA_eq]
  iintro ⟨⟨%Xs, %h, HS⟩, Hg⟩
  isplitl [HS]
  · iexists _; iexact HS
  iexact Hg

/-- The result array ends holding the product: every entry is in a block written back at a last tile, and what is
    written back there is the product's block. -/
theorem final3 (c : Dev nD) : (dats m 0 c).arrAt 3 cfg0.N = target m c :=
  (dats m 0 c).arrAt_eq_of_cover 3 (target m c)
    (fun t _ => by
      show (cfg0.win 3).cut (grid0.coords t) ((dats m 0 c).after 3 t) = _
      rw [after3]
      exact win0_3.cut_fill _ _ _)
    (OutputCover.cover c)

/-! ## The run -/

set_option backward.isDefEq.respectTransparency.types false in
/-- From any memory with zero counters every weakly fair execution of @main on the TensorCores terminates, with every
    array of the pipeline at what the proof data computes for it and every other unscoped buffer as it was. -/
theorem run_main :
    θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hin := hin m) (hout := hout m)

/-- THE KERNEL'S RUN: it terminates with the result array at the grouped product of the three argument arrays, and
    the argument arrays as launched. -/
theorem kernel_runs :
    θ_run (defs (F := Ideal)) (onTc (τ := τ) (main (F := Ideal))) ⟨m, fun _ => 0, ρ⟩ (fun r => ∀ c : Dev nD,
      r.2.mem ((c.tc : Thread nD τ).loc main_v0)
        = Cert.GroupedProduct.product (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 3).trans (final3 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Final

end
-- ==== Proof.lean ====
/-
  The certificate of a tiled matrix product against group-quantised weights.

  The kernel computes `y = x · Wᵀ` for `x : f32[4096, 4096]` and a weight matrix `W : [11008, 4096]` that is stored
  as integer codes `q` with one scale per row and per group of 128 columns, `W[o, k] = (q[o, k] - 8) * s[o, k / 128]`.
  It walks a grid of 3 × 6 output blocks of [1536, 2048] and, for each, 16 column tiles of 256: at each tile it
  rebuilds the tile of `W` from its codes and the tile's two scale columns, multiplies, and adds the partial
  product into a scratch accumulator, which it zeroes at the first tile and copies to the output block at the
  last. The blocks do not tile the arrays (4096 = 2 · 1536 + 1024, 11008 = 5 · 2048 + 768): the edge blocks
  overhang, their buffers' tails hold words no array names, and the write-back of an edge block writes only its
  part inside the array. The reference dequantises the whole of `W` and contracts it with `x` in one sum.

  Over the extended reals, where the kernel's changes of number format are the identity, both results are
  `y[r, o] = Σ_k x[r, k] * ((q[o, k] - 8) * s[o, k / 128])`: the kernel's sixteen partial sums of 256 terms are a
  regrouping of the reference's one sum of 4096, equal by commutativity and associativity of addition alone, so
  the precondition (finite inputs) is never used. The entries of the buffers that stand for no entry of an array
  never reach the result: an output entry inside the array depends only on input entries inside the arrays.

  The five claims are assembled in `Claims`; the idealized kernel's run — the result array ends holding the
  product, the arguments unchanged — is `Final.kernel_runs`.
-/
import proofs.«115205_j37082747634166_1_alg».proof.Defs
import proofs.«115205_j37082747634166_1_alg».proof.Proof.Claims
import proofs.«115205_j37082747634166_1_alg».proof.Proof.Final

noncomputable section

namespace Cert.Proof

theorem claim : Cert.Claim := Cert.Proof.Claims.claim_of fun m ρ => Cert.KernelIdeal.Final.kernel_runs m ρ

end Cert.Proof

end
